-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg26 : FVec F S128 .f32) (main_arg27 : FVec F S1x128 .f32) (main_arg28 : FVec F S1 .f32) (main_v118 : IVec S_ 1) (main_v119 : FVec F S128x256 .f32) : IVec S_ 1 :=
  let main_cst_46 : FVec F S_ .f32 := constant S_ .f32 0x7F800000#32
  let main_v120 : FVec F S128x256 .f32 := broadcastInDim S128x256 ![] bcast_S_S128x256 main_cst_46
  let main_v121 : IVec S128x256 1 := cmpf .olt main_v119 main_v120
  let main_c_47 : IVec S_ 1 := constantI S_ 1 1#1
  let main_v122 : IVec S_ 1 := (fun x v => Host.reduce IntOp.andi x v reducesTo_S128x256_S_d0_1 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S1x128 .f32 := Host.absf main_arg27
  let main_cst_50 : FVec F S_ .f32 := constant S_ .f32 0x7F800000#32
  let main_v130 : FVec F S1x128 .f32 := broadcastInDim S1x128 ![] bcast_S_S1x128 main_cst_50
  let main_v131 : IVec S1x128 1 := cmpf .olt main_v129 main_v130
  let main_c_51 : IVec S_ 1 := constantI S_ 1 1#1
  let main_v132 : IVec S_ 1 := (fun x v => Host.reduce IntOp.andi x v reducesTo_S1x128_S_d0_1 h_S_) main_v131 main_c_51
  let main_v133 : IVec S_ 1 := andi main_v128 main_v132
  let main_v134 : FVec F S1 .f32 := Host.absf main_arg28
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg22
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg23
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg24
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S128x256 .f32 := Host.absf main_arg25
  fn_part7 (F := F) main_arg26 main_arg27 main_arg28 main_v118 main_v119

def fn_part5 {F : FTy → Type} [FloatOps F] (main_arg19 : FVec F S256 .f32) (main_arg20 : FVec F S256 .f32) (main_arg21 : FVec F S256 .f32) (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg16
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256x256 .f32) (main_arg24 : FVec F S256 .f32) (main_arg25 : FVec F S128x256 .f32) (main_arg26 : FVec F S128 .f32) (main_arg27 : FVec F S1x128 .f32) (main_arg28 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x1 : Shape := ⟨2, ![1, 1]⟩
abbrev S5000x1 : Shape := ⟨2, ![5000, 1]⟩
abbrev S5000 : Shape := ⟨1, ![5000]⟩

abbrev nBuf : Space → Nat
  | .hbm => 109
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256x256, .f32⟩
  | .hbm, ⟨24, _⟩ => ⟨S256, .f32⟩
  | .hbm, ⟨25, _⟩ => ⟨S128x256, .f32⟩
  | .hbm, ⟨26, _⟩ => ⟨S128, .f32⟩
  | .hbm, ⟨27, _⟩ => ⟨S1x128, .f32⟩
  | .hbm, ⟨28, _⟩ => ⟨S1, .f32⟩
  | .hbm, ⟨29, _⟩ => ⟨S1x800000, .i32⟩
  | .hbm, ⟨30, _⟩ => ⟨S800000, .i32⟩
  | .hbm, ⟨31, _⟩ => ⟨S1x800000, .i32⟩
  | .hbm, ⟨32, _⟩ => ⟨S800000, .i32⟩
  | .hbm, ⟨33, _⟩ => ⟨S_, .f32⟩
  | .hbm, ⟨34, _⟩ => ⟨S800000x1, .f32⟩
  | .hbm, ⟨35, _⟩ => ⟨S_, .f32⟩
  | .hbm, ⟨36, _⟩ => ⟨S50000x1, .f32⟩
  | .hbm, ⟨37, _⟩ => ⟨S800000x1, .i32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S50000x256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S50000x256, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x256, .f32⟩
  | .hbm, ⟨93, _⟩ => ⟨S_, .f32⟩
  | .hbm, ⟨94, _⟩ => ⟨S50000x256, .f32⟩
  | .hbm, ⟨95, _⟩ => ⟨S800000x1, .i32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S1x256, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S50000x256, .f32⟩
  | .hbm, ⟨105, _⟩ => ⟨S1x256, .f32⟩
  | .hbm, ⟨106, _⟩ => ⟨S1x128, .f32⟩
  | .hbm, ⟨107, _⟩ => ⟨S1x1, .f32⟩
  | .hbm, ⟨108, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S5000x256, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S5000x256, .f32⟩
  | .local _ .vmem, ⟨38, _⟩ => ⟨S5000x256, .f32⟩
  | .local _ .vmem, ⟨39, _⟩ => ⟨S5000x256, .f32⟩
  | .local _ .vmem, ⟨40, _⟩ => ⟨S5000x256, .f32⟩
  | .local _ .vmem, ⟨41, _⟩ => ⟨S256x256, .f32⟩
  | .local _ .vmem, ⟨42, _⟩ => ⟨S1x256, .f32⟩
  | .local _ .vmem, ⟨43, _⟩ => ⟨S128x256, .f32⟩
  | .local _ .vmem, ⟨44, _⟩ => ⟨S1x128, .f32⟩
  | .local _ .vmem, ⟨45, _⟩ => ⟨S1x128, .f32⟩
  | .local _ .vmem, ⟨46, _⟩ => ⟨S1x1, .f32⟩
  | .local _ .vmem, ⟨47, _⟩ => ⟨S5000x1, .f32⟩
  | .local _ .vmem, ⟨48, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_c : Ref sig .tc := ⟨.hbm, 42, rfl⟩
abbrev main_v10 : Ref sig .tc := ⟨.hbm, 43, rfl⟩
abbrev main_v11 : Ref sig .tc := ⟨.hbm, 44, rfl⟩
abbrev main_c_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_c_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_6 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_7 : Ref sig .tc := ⟨.hbm, 84, rfl⟩
abbrev main_v46 : Ref sig .tc := ⟨.hbm, 85, rfl⟩
abbrev main_v47 : Ref sig .tc := ⟨.hbm, 86, rfl⟩
abbrev main_c_8 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_9 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg7_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem7_1 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S128_S1x128 : S128.ShapeCasts S1x128
  shapeCasts_S1_S1x1 : S1.ShapeCasts S1x1
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S256x128_S5000x256_1_1_0_0_n_n_wf : DotDims.WF S5000x128 S256x128 S5000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_1_0_0_n_n_wf : DotDims.WF S5000x256 S256x256 S5000x256 [1] [1] [0] [0] [] []
  dot_S5000x256_S128x256_S5000x128_1_1_0_0_n_n_wf : DotDims.WF S5000x256 S128x256 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x256.size a ≤ S50000x256.size a
  hwx0_9 : ∀ i : grid0.Coords, EltTy.bits .f32 = 32 ∨ (Rect.block (s := S50000x256) S5000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x256.size a ≤ S50000x256.size a
  hwx1_9 : ∀ i : grid1.Coords, EltTy.bits .f32 = 32 ∨ (Rect.block (s := S50000x256) S5000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x256.size a ≤ S50000x256.size a
  hwx2_9 : ∀ i : grid2.Coords, EltTy.bits .f32 = 32 ∨ (Rect.block (s := S50000x256) S5000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S50000x1.size a
  hwx3_7 : ∀ i : grid3.Coords, EltTy.bits .f32 = 32 ∨ (Rect.block (s := S50000x1) S5000x1.size (cc3_transform_7 i) (hinb3_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S256x128_S5000x256_1_1_0_0_n_n : DotDims S5000x128 S256x128 S5000x256 where
  lhsContracting := [1]
  rhsContracting := [1]
  lhsNonContracting := [0]
  rhsNonContracting := [0]
  lhsBatch := []
  rhsBatch := []
  wf := dot_S5000x128_S256x128_S5000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_1_0_0_n_n : DotDims S5000x256 S256x256 S5000x256 where
  lhsContracting := [1]
  rhsContracting := [1]
  lhsNonContracting := [0]
  rhsNonContracting := [0]
  lhsBatch := []
  rhsBatch := []
  wf := dot_S5000x256_S256x256_S5000x256_1_1_0_0_n_n_wf
def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S5000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S5000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v57) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S5000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v63) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg23) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg25) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg27) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S128x1 : Shape := ⟨2, ![128, 1]⟩
abbrev S1x1 : Shape := ⟨2, ![1, 1]⟩

abbrev nBuf : Space → Nat
  | .hbm => 215
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S256x128, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256, .f32⟩
  | 21 => ⟨S256, .f32⟩
  | 22 => ⟨S256, .f32⟩
  | 23 => ⟨S256x256, .f32⟩
  | 24 => ⟨S256, .f32⟩
  | 25 => ⟨S128x256, .f32⟩
  | 26 => ⟨S128, .f32⟩
  | 27 => ⟨S1x128, .f32⟩
  | 28 => ⟨S1, .f32⟩
  | 29 => ⟨S1x800000, .i32⟩
  | 30 => ⟨S800000, .i32⟩
  | 31 => ⟨S1x800000, .i32⟩
  | 32 => ⟨S800000, .i32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S_, .f32⟩
  | 47 => ⟨S800000x1, .f32⟩
  | 48 => ⟨S_, .f32⟩
  | 49 => ⟨S50000x1, .f32⟩
  | 50 => ⟨S800000x1, .i32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S128x256, .f32⟩
  | 58 => ⟨S50000x256, .f32⟩
  | 59 => ⟨S1x256, .f32⟩
  | 60 => ⟨S50000x256, .f32⟩
  | 61 => ⟨S50000x256, .f32⟩
  | 62 => ⟨S128x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S256, .f32⟩
  | 70 => ⟨S256, .f32⟩
  | 71 => ⟨S256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .f32⟩
  | 93 => ⟨S_, .f32⟩
  | 94 => ⟨S50000x256, .f32⟩
  | 95 => ⟨S800000x1, .i32⟩
  | 96 => ⟨S50000x256, .f32⟩
  | 97 => ⟨S_, .f32⟩
  | 98 => ⟨S800000x1, .f32⟩
  | 99 => ⟨S_, .f32⟩
  | 100 => ⟨S50000x1, .f32⟩
  | 101 => ⟨S800000x1, .i32⟩
  | 102 => ⟨S50000x1, .f32⟩
  | 103 => ⟨S_, .f32⟩
  | 104 => ⟨S50000x1, .f32⟩
  | 105 => ⟨S50000x1, .f32⟩
  | 106 => ⟨S50000x256, .f32⟩
  | 107 => ⟨S50000x256, .f32⟩
  | 108 => ⟨S256x256, .f32⟩
  | 109 => ⟨S50000x256, .f32⟩
  | 110 => ⟨S1x256, .f32⟩
  | 111 => ⟨S50000x256, .f32⟩
  | 112 => ⟨S50000x256, .f32⟩
  | 113 => ⟨S256x256, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S256, .f32⟩
  | 121 => ⟨S256, .f32⟩
  | 122 => ⟨S256, .f32⟩
  | 123 => ⟨S1x256, .f32⟩
  | 124 => ⟨S50000x256, .f32⟩
  | 125 => ⟨S50000x256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x256, .f32⟩
  | 16 => ⟨S_, .f32⟩
  | 17 => ⟨S50000x256, .f32⟩
  | 18 => ⟨S800000x1, .i32⟩
  | 19 => ⟨S50000x256, .f32⟩
  | 20 => ⟨S_, .f32⟩
  | 21 => ⟨S800000x1, .f32⟩
  | 22 => ⟨S_, .f32⟩
  | 23 => ⟨S50000x1, .f32⟩
  | 24 => ⟨S800000x1, .i32⟩
  | 25 => ⟨S50000x1, .f32⟩
  | 26 => ⟨S_, .f32⟩
  | 27 => ⟨S50000x1, .f32⟩
  | 28 => ⟨S50000x1, .f32⟩
  | 29 => ⟨S50000x256, .f32⟩
  | 30 => ⟨S50000x256, .f32⟩
  | 31 => ⟨S256x256, .f32⟩
  | 32 => ⟨S50000x256, .f32⟩
  | 33 => ⟨S1x256, .f32⟩
  | 34 => ⟨S50000x256, .f32⟩
  | 35 => ⟨S50000x256, .f32⟩
  | 36 => ⟨S256x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S256, .f32⟩
  | 44 => ⟨S256, .f32⟩
  | 45 => ⟨S256, .f32⟩
  | 46 => ⟨S1x256, .f32⟩
  | 47 => ⟨S50000x256, .f32⟩
  | 48 => ⟨S50000x256, .f32⟩
  | 49 => ⟨S1x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S256x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S256x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S128x1, .f32⟩
  | 75 => ⟨S50000x1, .f32⟩
  | 76 => ⟨S1x1, .f32⟩
  | 77 => ⟨S50000x1, .f32⟩
  | 78 => ⟨S50000x1, .f32⟩
  | 79 => ⟨S50000x1, .f32⟩
  | 80 => ⟨S50000x1, .f32⟩
  | 81 => ⟨S_, .f32⟩
  | 82 => ⟨S50000x1, .f32⟩
  | 83 => ⟨S50000x1, .f32⟩
  | 84 => ⟨S_, .f32⟩
  | 85 => ⟨S50000x1, .f32⟩
  | 86 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_4 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call0_cst : Ref sig .tc := ⟨.hbm, 81, rfl⟩
abbrev main_call0_v0 : Ref sig .tc := ⟨.hbm, 82, rfl⟩
abbrev main_v45 : Ref sig .tc := ⟨.hbm, 83, rfl⟩
abbrev main_c_5 : Ref sig .tc := ⟨.hbm, 84, rfl⟩
abbrev main_v46 : Ref sig .tc := ⟨.hbm, 85, rfl⟩
abbrev main_v47 : Ref sig .tc := ⟨.hbm, 86, rfl⟩
abbrev main_c_6 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_7 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_8 : Ref sig .tc := ⟨.hbm, 97, rfl⟩
abbrev main_v56 : Ref sig .tc := ⟨.hbm, 98, rfl⟩
abbrev main_cst_9 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_10 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_11 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_call1_cst : Ref sig .tc := ⟨.hbm, 132, rfl⟩
abbrev main_call1_v0 : Ref sig .tc := ⟨.hbm, 133, rfl⟩
abbrev main_v87 : Ref sig .tc := ⟨.hbm, 134, rfl⟩
abbrev main_c_12 : Ref sig .tc := ⟨.hbm, 135, rfl⟩
abbrev main_v88 : Ref sig .tc := ⟨.hbm, 136, rfl⟩
abbrev main_v89 : Ref sig .tc := ⟨.hbm, 137, rfl⟩
abbrev main_c_13 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_14 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_15 : Ref sig .tc := ⟨.hbm, 148, rfl⟩
abbrev main_v98 : Ref sig .tc := ⟨.hbm, 149, rfl⟩
abbrev main_cst_16 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_17 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_18 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_call2_cst : Ref sig .tc := ⟨.hbm, 183, rfl⟩
abbrev main_call2_v0 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call3_cst : Ref sig .tc := ⟨.hbm, 191, rfl⟩
abbrev main_call3_v0 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_call4_cst : Ref sig .tc := ⟨.hbm, 199, rfl⟩
abbrev main_call4_v0 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_19 : Ref sig .tc := ⟨.hbm, 209, rfl⟩
abbrev main_v149 : Ref sig .tc := ⟨.hbm, 210, rfl⟩
abbrev main_v150 : Ref sig .tc := ⟨.hbm, 211, rfl⟩
abbrev main_cst_20 : Ref sig .tc := ⟨.hbm, 212, rfl⟩
abbrev main_v151 : Ref sig .tc := ⟨.hbm, 213, rfl⟩
abbrev main_v152 : Ref sig .tc := ⟨.hbm, 214, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelHeld.lean ====
/-
  The idealized kernel's run, with every buffer named.

  The program alternates stretches of whole-array operations with four tiled kernel calls. Its run is a fold of the
  buffer contents through those eight segments: a stretch applies its operations to the contents it finds, a tiled
  call replaces each of its output arrays by what its write-backs leave and keeps every other buffer. The statement
  here keeps the whole of the last stage of that fold: after the run, on every core, every buffer that outlives the
  call holds the fold's final contents. Which function of the arguments those contents are is the business of the
  modules that read the fold back, stage by stage.
-/
import proofs.«110900_j10282151707180_2_alg».proof.Proof.Gen.KernelIdeal.Frame

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final memory every buffer that
    outlives the call holds, on every core, the last stage of the fold of the program's eight segments. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Held

end
-- ==== Proof.KernelAgg.lean ====
/-
  The neighbourhood mean, as the kernel's program spells it.

  The edge list is a pair of rows: sources and destinations. A node's aggregated row is the sum of the feature rows of
  the sources of its incoming edges, divided by the number of those edges, or by one where there are none. The sum is a
  gather of the source rows followed by an accumulating scatter into the destination rows; the count is the same scatter
  of a column of ones. The program computes the count once and reuses it in all three layers.

  These are the whole-array operations exactly as the program prints them; nothing here opens them. The proof only ever
  uses that both programs apply the SAME operations to the same feature array.
-/
import proofs.«110900_j10282151707180_2_alg».proof.Proof.Gen.KernelIdeal
import Idealize.ShloMosaic.PureOps.Ideal

noncomputable section

namespace Cert.KernelIdeal.Agg

open Cert.KernelIdeal Cert.KernelIdeal.Gen Idealize.ShloMosaic

/-- The edges' source nodes: the first row of the edge list. -/
def src (ei : (⟨S2x800000, .i32⟩ : BufTy).Contents (Elt Ideal)) : (⟨S800000, .i32⟩ : BufTy).Contents (Elt Ideal) :=
  fun i => shapeCast S800000 (extractStridedSlice S1x800000 ![0, 0] ei slices_S2x800000_S1x800000_0_0) shapeCasts_S1x800000_S800000 i

/-- The edges' destination nodes: the second row of the edge list. -/
def dst (ei : (⟨S2x800000, .i32⟩ : BufTy).Contents (Elt Ideal)) : (⟨S800000, .i32⟩ : BufTy).Contents (Elt Ideal) :=
  fun i => shapeCast S800000 (extractStridedSlice S1x800000 ![1, 0] ei slices_S2x800000_S1x800000_1_0) shapeCasts_S1x800000_S800000 i

/-- The number of incoming edges of each node, at least one. -/
def cnt (d : (⟨S800000, .i32⟩ : BufTy).Contents (Elt Ideal)) : (⟨S50000x1, .f32⟩ : BufTy).Contents (Elt Ideal) :=
  maximumf (F := Ideal) (φ := .f32)
    (Host.scatterAdd (F := Ideal) (φ := .f32) scatter_S50000x1_S800000x1_S800000x1_1_0_0_1
      (broadcastInDim S50000x1 ![] bcast_S_S50000x1 (constant (F := Ideal) S_ .f32 0x00000000#32))
      (broadcastInDim S800000x1 ![0] bcast_S800000_S800000x1_0 d)
      (broadcastInDim S800000x1 ![] bcast_S_S800000x1 (constant (F := Ideal) S_ .f32 0x3F800000#32)))
    (broadcastInDim S50000x1 ![] bcast_S_S50000x1 (constant (F := Ideal) S_ .f32 0x3F800000#32))

/-- The neighbourhood mean of an array of 128 features per node. -/
def agg128 (s d : (⟨S800000, .i32⟩ : BufTy).Contents (Elt Ideal)) (n : (⟨S50000x1, .f32⟩ : BufTy).Contents (Elt Ideal))
    (x : (⟨S50000x128, .f32⟩ : BufTy).Contents (Elt Ideal)) : (⟨S50000x128, .f32⟩ : BufTy).Contents (Elt Ideal) :=
  Host.divf (F := Ideal) (φ := .f32)
    (Host.scatterAdd (F := Ideal) (φ := .f32) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather (α := Ideal .f32) gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1 n)

/-- The neighbourhood mean of an array of 256 features per node. -/
def agg256 (s d : (⟨S800000, .i32⟩ : BufTy).Contents (Elt Ideal)) (n : (⟨S50000x1, .f32⟩ : BufTy).Contents (Elt Ideal))
    (x : (⟨S50000x256, .f32⟩ : BufTy).Contents (Elt Ideal)) : (⟨S50000x256, .f32⟩ : BufTy).Contents (Elt Ideal) :=
  Host.divf (F := Ideal) (φ := .f32)
    (Host.scatterAdd (F := Ideal) (φ := .f32) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather (α := Ideal .f32) gather_S50000x256_S800000x1_S800000x256_1_0_n_n_0_1_1256 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x256 ![0, 1] bcast_S50000x1_S50000x256_0_1 n)

end Cert.KernelIdeal.Agg

end
-- ==== Proof.FoldBase.lean ====
/-
  Reading the fold of the program's segments back: the buffers that every segment leaves alone.

  The contents of the buffers at the eight segment boundaries form a fold from the launch memory. A stretch of whole-array
  operations changes only the buffers its operations define; a tiled call changes only its output array. So an argument
  array holds its launch contents at every boundary up to the call that reads it, and the three columns computed from
  the edge list before the first call — the edges' sources, their destinations, and each node's incoming-edge count —
  keep their values through the later stretches and calls. These facts are read off the fold one segment at a time.
-/
import proofs.«110900_j10282151707180_2_alg».proof.Proof.Gen.KernelIdeal.Frame
import proofs.«110900_j10282151707180_2_alg».proof.Proof.KernelAgg
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- Every argument array. -/
def args0 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]
/-- The arguments first read by the second, third and last calls. -/
def args9 : List (Ref sig .tc) := [main_arg9, main_arg10, main_arg11, main_arg12, main_arg13, main_arg14, main_arg15, main_arg16, main_arg17, main_arg18, main_arg19, main_arg20, main_arg21, main_arg22, main_arg23, main_arg24, main_arg25, main_arg26, main_arg27, main_arg28]
/-- The arguments first read by the third and last calls. -/
def args16 : List (Ref sig .tc) := [main_arg16, main_arg17, main_arg18, main_arg19, main_arg20, main_arg21, main_arg22, main_arg23, main_arg24, main_arg25, main_arg26, main_arg27, main_arg28]
/-- The arguments read by the last call. -/
def args23 : List (Ref sig .tc) := [main_arg23, main_arg24, main_arg25, main_arg26, main_arg27, main_arg28]

/-! ## The argument arrays -/

set_option maxHeartbeats 4000000 in
/-- The first stretch defines no argument array. -/
theorem keep1 {b : Ref sig .tc} (hb : b ∈ args0) : W1 m ρ c (Proc.devRef .tc b) = m ((c : Thread nD τ).loc b) := by
  simp only [args0, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl
  all_goals (dsimp only [W1, hostOps0]; after_results_simp)

/-- The first call's arrays are not among the later arguments. -/
theorem keep2 {b : Ref sig .tc} (hb : b ∈ args9) : W2 m ρ c (Proc.devRef .tc b) = m ((c : Thread nD τ).loc b) := by
  have h0 : b ∈ args0 := by
    simp only [args9, List.mem_cons, List.not_mem_nil, or_false] at hb
    rcases hb with rfl | rfl | rfl | rfl | rfl | rfl | rfl | rfl | rfl | rfl | rfl | rfl | rfl | rfl | rfl | rfl | rfl | rfl | rfl | rfl <;> decide
  refine (W2_of_ne m ρ c b ?_).trans (keep1 m ρ c h0)
  simp only [args9, List.mem_cons, List.not_mem_nil, or_false] at hb
  rcases hb with rfl | rfl | rfl | rfl | rfl | rfl | rfl | rfl | rfl | rfl | rfl | rfl | rfl | rfl | rfl | rfl | rfl | rfl | rfl | rfl <;> decide

set_option maxHeartbeats 4000000 in
/-- The second stretch defines no argument array. -/
theorem keep3 {b : Ref sig .tc} (hb : b ∈ args9) : W3 m ρ c (Proc.devRef .tc b) = m ((c : Thread nD τ).loc b) := by
  refine Eq.trans ?_ (keep2 m ρ c hb)
  simp only [args9, List.mem_cons, List.not_mem_nil, or_false] at hb
  rcases hb with rfl | rfl | rfl | rfl | rfl | rfl | rfl | rfl | rfl | rfl | rfl | rfl | rfl | rfl | rfl | rfl | rfl | rfl | rfl | rfl
  all_goals (dsimp only [W3, hostOps1]; after_results_simp)

/-- The second call's arrays are not among the later arguments. -/
theorem keep4 {b : Ref sig .tc} (hb : b ∈ args16) : W4 m ρ c (Proc.devRef .tc b) = m ((c : Thread nD τ).loc b) := by
  have h9 : b ∈ args9 := by
    simp only [args16, List.mem_cons, List.not_mem_nil, or_false] at hb
    rcases hb with rfl | rfl | rfl | rfl | rfl | rfl | rfl | rfl | rfl | rfl | rfl | rfl | rfl <;> decide
  refine (W4_of_ne m ρ c b ?_).trans (keep3 m ρ c h9)
  simp only [args16, List.mem_cons, List.not_mem_nil, or_false] at hb
  rcases hb with rfl | rfl | rfl | rfl | rfl | rfl | rfl | rfl | rfl | rfl | rfl | rfl | rfl <;> decide

set_option maxHeartbeats 4000000 in
/-- The third stretch defines no argument array. -/
theorem keep5 {b : Ref sig .tc} (hb : b ∈ args16) : W5 m ρ c (Proc.devRef .tc b) = m ((c : Thread nD τ).loc b) := by
  refine Eq.trans ?_ (keep4 m ρ c hb)
  simp only [args16, List.mem_cons, List.not_mem_nil, or_false] at hb
  rcases hb with rfl | rfl | rfl | rfl | rfl | rfl | rfl | rfl | rfl | rfl | rfl | rfl | rfl
  all_goals (dsimp only [W5, hostOps2]; after_results_simp)

/-- The third call's arrays are not among the last call's arguments. -/
theorem keep6 {b : Ref sig .tc} (hb : b ∈ args23) : W6 m ρ c (Proc.devRef .tc b) = m ((c : Thread nD τ).loc b) := by
  have h16 : b ∈ args16 := by
    simp only [args23, List.mem_cons, List.not_mem_nil, or_false] at hb
    rcases hb with rfl | rfl | rfl | rfl | rfl | rfl <;> decide
  refine (W6_of_ne m ρ c b ?_).trans (keep5 m ρ c h16)
  simp only [args23, List.mem_cons, List.not_mem_nil, or_false] at hb
  rcases hb with rfl | rfl | rfl | rfl | rfl | rfl <;> decide

set_option maxHeartbeats 4000000 in
/-- The fourth stretch defines no argument array. -/
theorem keep7 {b : Ref sig .tc} (hb : b ∈ args23) : W7 m ρ c (Proc.devRef .tc b) = m ((c : Thread nD τ).loc b) := by
  refine Eq.trans ?_ (keep6 m ρ c hb)
  simp only [args23, List.mem_cons, List.not_mem_nil, or_false] at hb
  rcases hb with rfl | rfl | rfl | rfl | rfl | rfl
  all_goals (dsimp only [W7, hostOps3]; after_results_simp)

/-! ## The three columns computed from the edge list -/

set_option maxHeartbeats 4000000 in
/-- After the first stretch: the edges' sources. -/
theorem src1 : W1 m ρ c (Proc.devRef .tc main_v1) = Agg.src (m ((c : Thread nD τ).loc main_arg1)) := by
  dsimp only [W1, hostOps0]; after_results_simp; rfl

set_option maxHeartbeats 4000000 in
/-- After the first stretch: the edges' destinations. -/
theorem dst1 : W1 m ρ c (Proc.devRef .tc main_v3) = Agg.dst (m ((c : Thread nD τ).loc main_arg1)) := by
  dsimp only [W1, hostOps0]; after_results_simp; rfl

set_option maxHeartbeats 4000000 in
/-- After the first stretch: each node's incoming-edge count, at least one. -/
theorem cnt1 : W1 m ρ c (Proc.devRef .tc main_v9) = Agg.cnt (Agg.dst (m ((c : Thread nD τ).loc main_arg1))) := by
  dsimp only [W1, hostOps0]; after_results_simp; rfl

/-- The first call keeps the three columns. -/
theorem src2 : W2 m ρ c (Proc.devRef .tc main_v1) = Agg.src (m ((c : Thread nD τ).loc main_arg1)) :=
  (W2_of_ne m ρ c main_v1 (by decide)).trans (src1 m ρ c)
theorem dst2 : W2 m ρ c (Proc.devRef .tc main_v3) = Agg.dst (m ((c : Thread nD τ).loc main_arg1)) :=
  (W2_of_ne m ρ c main_v3 (by decide)).trans (dst1 m ρ c)
theorem cnt2 : W2 m ρ c (Proc.devRef .tc main_v9) = Agg.cnt (Agg.dst (m ((c : Thread nD τ).loc main_arg1))) :=
  (W2_of_ne m ρ c main_v9 (by decide)).trans (cnt1 m ρ c)

set_option maxHeartbeats 4000000 in
/-- The second stretch and the second call keep them. -/
theorem src4 : W4 m ρ c (Proc.devRef .tc main_v1) = Agg.src (m ((c : Thread nD τ).loc main_arg1)) := by
  refine (W4_of_ne m ρ c main_v1 (by decide)).trans (Eq.trans ?_ (src2 m ρ c))
  dsimp only [W3, hostOps1]; after_results_simp
set_option maxHeartbeats 4000000 in
theorem dst4 : W4 m ρ c (Proc.devRef .tc main_v3) = Agg.dst (m ((c : Thread nD τ).loc main_arg1)) := by
  refine (W4_of_ne m ρ c main_v3 (by decide)).trans (Eq.trans ?_ (dst2 m ρ c))
  dsimp only [W3, hostOps1]; after_results_simp
set_option maxHeartbeats 4000000 in
theorem cnt4 : W4 m ρ c (Proc.devRef .tc main_v9) = Agg.cnt (Agg.dst (m ((c : Thread nD τ).loc main_arg1))) := by
  refine (W4_of_ne m ρ c main_v9 (by decide)).trans (Eq.trans ?_ (cnt2 m ρ c))
  dsimp only [W3, hostOps1]; after_results_simp

end Cert.KernelIdeal.Fold

end
-- ==== Proof.SageSpec.lean ====
/-
  A three-layer mean-aggregation graph network with a small perceptron head, on the extended reals.

  Every node carries a row of features. A layer replaces the row of node p by, channel j by channel j,

      max( (((Σₖ mean(p,k)·Wl(j,k) + Σₖ x(p,k)·Wr(j,k)) + bl(j)) − rm(j)) · rsqrt(rv(j) + ε) · g(j) + be(j) , 0 )

  where mean is the aggregated neighbourhood of the node (an arbitrary function A of the whole feature array: the layer
  never looks inside it), Wl and Wr are stored output-channel-major, and the last five terms are the per-channel
  normalisation. The head maps the final row through two dense layers cut off at zero and one dot product, and squashes
  the scalar by the logistic function 1 / (1 + e^{-z}). A node's output row depends on the rows of that node alone, so
  the same formula describes a block of consecutive rows and the whole array.

  ε and 0 are kept as the words they are written with; no law of arithmetic is used in this file.
-/
import Idealize.ShloMosaic.PureOps.Ideal
import Idealize.ShloMosaic.Lib.ValueIdx

noncomputable section

open scoped BigOperators

namespace Cert.Sage

open Idealize.ShloMosaic Idealize.ShloMosaic.ValueIdx

/-- The guard ε added to a channel's variance before the reciprocal square root (the single-precision word nearest 1e-5). -/
abbrev eps : EReal := Ideal.ofBits .f32 0x3727C5AC#32

/-- The cut-off level of the rectifier, the word of zero. -/
abbrev zero : EReal := Ideal.ofBits .f32 0x00000000#32

/-- One output channel of one node: the two dot products of the aggregated row and of the node's own row with the
    channel's two weight rows, the bias, the normalisation of the channel, and the rectifier. -/
def sage {K : Nat} (mean x wl wr : Fin K → EReal) (bl g be rm rv : EReal) : EReal :=
  max ((((((∑ k, mean k * wl k) + (∑ k, x k * wr k)) + bl) - rm) * Ideal.rsqrt (rv + eps)) * g + be) zero

/-- Entry (p, j) of a layer's output. -/
def layerAt (M K N : Nat) (mean x : (⟨2, ![M, K]⟩ : Shape).Idx → EReal) (wl wr : (⟨2, ![N, K]⟩ : Shape).Idx → EReal)
    (bl g be rm rv : Fin N → EReal) (p : Fin M) (j : Fin N) : EReal :=
  sage (fun k => mean (ix2 p k)) (fun k => x (ix2 p k)) (fun k => wl (ix2 j k)) (fun k => wr (ix2 j k))
    (bl j) (g j) (be j) (rm j) (rv j)

/-- A layer's output array, M rows of N channels. -/
def layer (M K N : Nat) (mean x : (⟨2, ![M, K]⟩ : Shape).Idx → EReal) (wl wr : (⟨2, ![N, K]⟩ : Shape).Idx → EReal)
    (bl g be rm rv : Fin N → EReal) : (⟨2, ![M, N]⟩ : Shape).Idx → EReal :=
  fun i => layerAt M K N mean x wl wr bl g be rm rv (i 0) (i 1)

theorem layer_ix2 (M K N : Nat) (mean x : (⟨2, ![M, K]⟩ : Shape).Idx → EReal) (wl wr : (⟨2, ![N, K]⟩ : Shape).Idx → EReal)
    (bl g be rm rv : Fin N → EReal) (p : Fin M) (j : Fin N) :
    layer M K N mean x wl wr bl g be rm rv (ix2 p j) = layerAt M K N mean x wl wr bl g be rm rv p j := rfl

/-- A node's output row depends on that node's two rows alone: where the rows of one pair of arrays are the rows
    numbered P p of another pair, the first layer's row p is the second's row P p. -/
theorem layerAt_rows {M M' K N : Nat} (P : Fin M' → Fin M)
    {mean x : (⟨2, ![M, K]⟩ : Shape).Idx → EReal} {mean' x' : (⟨2, ![M', K]⟩ : Shape).Idx → EReal}
    (wl wr : (⟨2, ![N, K]⟩ : Shape).Idx → EReal) (bl g be rm rv : Fin N → EReal)
    (hm : ∀ p k, mean' (ix2 p k) = mean (ix2 (P p) k)) (hx : ∀ p k, x' (ix2 p k) = x (ix2 (P p) k))
    (p : Fin M') (j : Fin N) :
    layerAt M' K N mean' x' wl wr bl g be rm rv p j = layerAt M K N mean x wl wr bl g be rm rv (P p) j := by
  unfold layerAt
  simp only [hm, hx]

/-- One unit of a dense layer cut off at zero. -/
def dense {K : Nat} (x w : Fin K → EReal) (b : EReal) : EReal := max ((∑ k, x k * w k) + b) zero

/-- The head on one node's row: 256 → 256 → 128 units, then the dot product with the last weight row, its bias, and
    the logistic function. -/
def headAt (x : Fin 256 → EReal) (pw1 : (⟨2, ![256, 256]⟩ : Shape).Idx → EReal) (pb1 : Fin 256 → EReal)
    (pw2 : (⟨2, ![128, 256]⟩ : Shape).Idx → EReal) (pb2 : Fin 128 → EReal) (pw3 : Fin 128 → EReal) (pb3 : EReal) : EReal :=
  Ideal.logistic ((∑ c : Fin 128,
      dense (fun b : Fin 256 => dense x (fun a => pw1 (ix2 b a)) (pb1 b)) (fun b => pw2 (ix2 c b)) (pb2 c) * pw3 c) + pb3)

/-- The head on M rows: a column of M scores. -/
def head (M : Nat) (x : (⟨2, ![M, 256]⟩ : Shape).Idx → EReal) (pw1 : (⟨2, ![256, 256]⟩ : Shape).Idx → EReal)
    (pb1 : Fin 256 → EReal) (pw2 : (⟨2, ![128, 256]⟩ : Shape).Idx → EReal) (pb2 : Fin 128 → EReal) (pw3 : Fin 128 → EReal)
    (pb3 : EReal) : (⟨2, ![M, 1]⟩ : Shape).Idx → EReal :=
  fun i => headAt (fun a => x (ix2 (i 0) a)) pw1 pb1 pw2 pb2 pw3 pb3

theorem head_ix2 (M : Nat) (x : (⟨2, ![M, 256]⟩ : Shape).Idx → EReal) (pw1 : (⟨2, ![256, 256]⟩ : Shape).Idx → EReal)
    (pb1 : Fin 256 → EReal) (pw2 : (⟨2, ![128, 256]⟩ : Shape).Idx → EReal) (pb2 : Fin 128 → EReal) (pw3 : Fin 128 → EReal)
    (pb3 : EReal) (p : Fin M) (q : Fin 1) :
    head M x pw1 pb1 pw2 pb2 pw3 pb3 (ix2 p q) = headAt (fun a => x (ix2 p a)) pw1 pb1 pw2 pb2 pw3 pb3 := rfl

/-- The head's score of a node depends on that node's row alone. -/
theorem head_rows {M M' : Nat} (P : Fin M' → Fin M)
    {x : (⟨2, ![M, 256]⟩ : Shape).Idx → EReal} {x' : (⟨2, ![M', 256]⟩ : Shape).Idx → EReal}
    (pw1 : (⟨2, ![256, 256]⟩ : Shape).Idx → EReal) (pb1 : Fin 256 → EReal) (pw2 : (⟨2, ![128, 256]⟩ : Shape).Idx → EReal)
    (pb2 : Fin 128 → EReal) (pw3 : Fin 128 → EReal) (pb3 : EReal)
    (hx : ∀ p a, x' (ix2 p a) = x (ix2 (P p) a)) (p : Fin M') :
    headAt (fun a => x' (ix2 p a)) pw1 pb1 pw2 pb2 pw3 pb3 = headAt (fun a => x (ix2 (P p) a)) pw1 pb1 pw2 pb2 pw3 pb3 := by
  simp only [hx]

/-- The whole network on 50000 nodes: three layers, each fed the aggregation of the previous features (A₁ on 128
    features, A₂ on 256) beside the features themselves, then the head. -/
def net (A₁ : ((⟨2, ![50000, 128]⟩ : Shape).Idx → EReal) → (⟨2, ![50000, 128]⟩ : Shape).Idx → EReal)
    (A₂ : ((⟨2, ![50000, 256]⟩ : Shape).Idx → EReal) → (⟨2, ![50000, 256]⟩ : Shape).Idx → EReal)
    (x : (⟨2, ![50000, 128]⟩ : Shape).Idx → EReal)
    (wl0 wr0 : (⟨2, ![256, 128]⟩ : Shape).Idx → EReal) (bl0 g0 be0 rm0 rv0 : Fin 256 → EReal)
    (wl1 wr1 : (⟨2, ![256, 256]⟩ : Shape).Idx → EReal) (bl1 g1 be1 rm1 rv1 : Fin 256 → EReal)
    (wl2 wr2 : (⟨2, ![256, 256]⟩ : Shape).Idx → EReal) (bl2 g2 be2 rm2 rv2 : Fin 256 → EReal)
    (pw1 : (⟨2, ![256, 256]⟩ : Shape).Idx → EReal) (pb1 : Fin 256 → EReal)
    (pw2 : (⟨2, ![128, 256]⟩ : Shape).Idx → EReal) (pb2 : Fin 128 → EReal) (pw3 : Fin 128 → EReal) (pb3 : EReal) :
    (⟨2, ![50000, 1]⟩ : Shape).Idx → EReal :=
  let x1 := layer 50000 128 256 (A₁ x) x wl0 wr0 bl0 g0 be0 rm0 rv0
  let x2 := layer 50000 256 256 (A₂ x1) x1 wl1 wr1 bl1 g1 be1 rm1 rv1
  let x3 := layer 50000 256 256 (A₂ x2) x2 wl2 wr2 bl2 g2 be2 rm2 rv2
  head 50000 x3 pw1 pb1 pw2 pb2 pw3 pb3

end Cert.Sage

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.LibDenseRowT.lean ====
/-
  A product with a matrix stored output-channel-major, on the extended reals.

  When the weights of a dense layer are kept as W(j, k) — one row per output channel j, one column per input feature k —
  the layer's product with a batch of rows X is X · Wᵀ:

      (X · Wᵀ)(p, j) = Σₖ X(p, k) · W(j, k),

  a contraction of the SECOND axis of both operands. This file reads that contraction, accumulated into a zero array,
  at one entry, for any extents. Only the definition of the product on the extended reals is opened; no law of
  arithmetic is used, so nothing here needs finiteness.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRowT

open Idealize.ShloMosaic Idealize.ShloMosaic.ValueIdx

/-- The dimension numbers of X · Wᵀ: rows of X against rows of W, both contracted on their second axis. -/
abbrev dotT (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand is read in the output's row. -/
theorem lhs_row (i : (⟨2, ![M, N]⟩ : Shape).Idx) (q : (dotT M K N wf).contr.Idx) :
    ((dotT M K N wf).lhsIdx i q 0).val = (i 0).val := by
  unfold DotDims.lhsIdx
  rw [dif_neg (show ¬(0 : Fin (⟨2, ![M, K]⟩ : Shape).rank) ∈ (dotT M K N wf).lhsBatch from List.not_mem_nil),
    dif_pos (show (0 : Fin (⟨2, ![M, K]⟩ : Shape).rank) ∈ (dotT M K N wf).lhsNonContracting from List.mem_singleton.mpr rfl)]
  rfl

/-- The right operand is read in the row numbered by the output's column. -/
theorem rhs_row (i : (⟨2, ![M, N]⟩ : Shape).Idx) (q : (dotT M K N wf).contr.Idx) :
    ((dotT M K N wf).rhsIdx i q 0).val = (i 1).val := by
  unfold DotDims.rhsIdx
  rw [dif_neg (show ¬(0 : Fin (⟨2, ![N, K]⟩ : Shape).rank) ∈ (dotT M K N wf).rhsBatch from List.not_mem_nil),
    dif_pos (show (0 : Fin (⟨2, ![N, K]⟩ : Shape).rank) ∈ (dotT M K N wf).rhsNonContracting from List.mem_singleton.mpr rfl)]
  rfl

/-- The contraction at entry (p, j) runs over the one shared axis: the sum over k of X(p, k) · W(j, k). -/
theorem contraction (l : (⟨2, ![M, K]⟩ : Shape).Idx → EReal) (r : (⟨2, ![N, K]⟩ : Shape).Idx → EReal) (p : Fin M) (j : Fin N) :
    ∑ c : (dotT M K N wf).contr.Idx, l ((dotT M K N wf).lhsIdx (ix2 p j) c) * r ((dotT M K N wf).rhsIdx (ix2 p j) c)
      = ∑ k : Fin K, l (ix2 p k) * r (ix2 j k) := by
  rw [← Equiv.sum_comp (contrEquiv1 (dotT M K N wf) K rfl rfl).symm]
  refine Finset.sum_congr rfl fun k _ => ?_
  have hk := contrEquiv1_symm_val (dotT M K N wf) K rfl rfl k
  have el : (dotT M K N wf).lhsIdx (ix2 p j) ((contrEquiv1 (dotT M K N wf) K rfl rfl).symm k) = ix2 p k :=
    funext fun a => Fin.ext (by
      match a with
      | ⟨0, _⟩ => exact lhs_row wf _ _
      | ⟨1, _⟩ => exact ((dotT M K N wf).lhsIdx_val_of_single rfl (ix2 p j) _).trans hk)
  have er : (dotT M K N wf).rhsIdx (ix2 p j) ((contrEquiv1 (dotT M K N wf) K rfl rfl).symm k) = ix2 j k :=
    funext fun a => Fin.ext (by
      match a with
      | ⟨0, _⟩ => exact rhs_row wf _ _
      | ⟨1, _⟩ => exact ((dotT M K N wf).rhsIdx_val_of_single rfl (ix2 p j) _).trans hk)
  rw [el, er]

/-- X · Wᵀ accumulated into the zero array, at entry (p, j). -/
theorem matmulT_zero_apply {φ₁ φ₂ : FTy} (prec : Option ContractPrecision)
    (X : FVec Ideal ⟨2, ![M, K]⟩ φ₁) (W : FVec Ideal ⟨2, ![N, K]⟩ φ₂) (p : Fin M) (j : Fin N) :
    matmul (dotT M K N wf) prec X W (constant ⟨2, ![M, N]⟩ .f32 0x00000000#32) (ix2 p j)
      = ∑ k : Fin K, X (ix2 p k) * W (ix2 j k) :=
  (Ideal.matmul_constant_zero_apply (dotT M K N wf) prec X W (ix2 p j)).trans (contraction wf X W p j)

end Cert.LibDenseRowT

end
-- ==== Proof.BlockRows.lean ====
/-
  The arithmetic of the four kernel bodies, read at one entry, on the extended reals.

  Each of the three layer bodies computes, for a block of 5000 rows and all 256 channels at once,

      max( (((X·Wlᵀ + Y·Wrᵀ) + bl) − rm) · rsqrt(rv + ε) · g + be , 0 ),

  with X the aggregated rows, Y the rows themselves, the two weight matrices stored one row per output channel, and the
  five per-channel parameters given as rows of length 256 broadcast down the block. Entry (p, j) of that array is the
  one-channel formula of the specification applied to row p of X and of Y, row j of the two weight matrices, and
  column j of the five parameter rows: the product with a transposed matrix is a sum over the shared axis, a broadcast
  row reads its column, and every other operation acts entry by entry. The order of the operations in the body is the
  order in the specification, so no law of arithmetic is used for the layers.

  The head's body is two dense layers cut off at zero, then a product with one weight row summed along the row, a
  bias, and the logistic function; entry (p, 0) of its column is the specification's head on row p.
-/
import proofs.«110900_j10282151707180_2_alg».proof.Proof.Gen.KernelIdeal.Skeleton
import proofs.«110900_j10282151707180_2_alg».proof.Proof.SageSpec
import proofs.«110900_j10282151707180_2_alg».proof.Proof.LibDenseRow
import proofs.«110900_j10282151707180_2_alg».proof.Proof.LibDenseRowT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BlockRows

open Cert.KernelIdeal Cert.KernelIdeal.Gen Idealize.ShloMosaic Idealize.ShloMosaic.ValueIdx

/-! ## Entry-by-entry operations, a column cast and a row sum, for any extents -/

/-- A reciprocal square root taken entry by entry. -/
theorem rsqrt_apply {s : Shape} {φ : FTy} (a : FVec Ideal s φ) (i : s.Idx) : rsqrt a i = Ideal.rsqrt (a i) := rfl

/-- A logistic function taken entry by entry. -/
theorem logistic_apply {s : Shape} {φ : FTy} (a : FVec Ideal s φ) (i : s.Idx) : logistic a i = Ideal.logistic (a i) := rfl

/-- A vector of a entries cast to a column reads, at (p, q), entry p: a column has one entry per row. -/
theorem shapeCast_a_a1_apply {α : Type} {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- Row p of an a × b array with column k put back in: the index (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an a × b array, started from the zero word, is at row p the sum of that row's entries. -/
theorem rowSum_apply {a b : ℕ} (x : FVec Ideal ⟨2, ![a, b]⟩ .f32) (h : (⟨2, ![a, b]⟩ : Shape).Reduces [1] (⟨1, ![a]⟩ : Shape))
    (hφ : FKind.Formats .f32) (hacc : (0x00000000#32 : BitVec (FTy.bits .f32)) = FKind.add.neutral .f32 hφ) (p : Fin a) :
    multiReduction (F := Ideal) .add [1] ⟨1, ![a]⟩ x 0x00000000#32 h hφ hacc (ix1 p) = ∑ c : Fin b, x (ix2 p c) := by
  refine (Ideal.multiReduction_add_single x _ h hφ hacc (ix1 p)).trans ?_
  show ∑ k : Fin b, x (h.lift (ix1 p) k) = _
  exact Finset.sum_congr rfl fun k _ => congrArg x (lift_row h p k)

/-! ## The products and broadcasts of the four bodies at one entry -/

/-- 5000 rows of 128 features times a 256 × 128 matrix stored one row per output channel, at (p, j). -/
theorem mm128 (X : FVec Ideal S5000x128 .bf16) (W : FVec Ideal S256x128 .bf16) (p : Fin 5000) (j : Fin 256) :
    matmul dot_S5000x128_S256x128_S5000x256_1_1_0_0_n_n none X W (constant (F := Ideal) S5000x256 .f32 0x00000000#32) (ix2 p j)
      = ∑ k : Fin 128, X (ix2 p k) * W (ix2 j k) :=
  Cert.LibDenseRowT.matmulT_zero_apply Gen.dot_S5000x128_S256x128_S5000x256_1_1_0_0_n_n_wf none X W p j

/-- 5000 rows of 256 features times a 256 × 256 matrix stored one row per output channel, at (p, j). -/
theorem mm256 (X : FVec Ideal S5000x256 .bf16) (W : FVec Ideal S256x256 .bf16) (p : Fin 5000) (j : Fin 256) :
    matmul dot_S5000x256_S256x256_S5000x256_1_1_0_0_n_n none X W (constant (F := Ideal) S5000x256 .f32 0x00000000#32) (ix2 p j)
      = ∑ k : Fin 256, X (ix2 p k) * W (ix2 j k) :=
  Cert.LibDenseRowT.matmulT_zero_apply Gen.dot_S5000x256_S256x256_S5000x256_1_1_0_0_n_n_wf none X W p j

/-- 5000 rows of 256 features times a 128 × 256 matrix stored one row per output channel, at (p, c). -/
theorem mm256to128 (X : FVec Ideal S5000x256 .bf16) (W : FVec Ideal S128x256 .bf16) (p : Fin 5000) (c : Fin 128) :
    matmul dot_S5000x256_S128x256_S5000x128_1_1_0_0_n_n none X W (constant (F := Ideal) S5000x128 .f32 0x00000000#32) (ix2 p c)
      = ∑ k : Fin 256, X (ix2 p k) * W (ix2 c k) :=
  Cert.LibDenseRowT.matmulT_zero_apply Gen.dot_S5000x256_S128x256_S5000x128_1_1_0_0_n_n_wf none X W p c

/-- A row of 256 channel parameters broadcast down 5000 rows reads its column. -/
theorem row256 (b : FVec Ideal S1x256 .f32) (h : S1x256.Broadcasts S5000x256) (p : Fin 5000) (j : Fin 256) :
    broadcastTo S5000x256 b h (ix2 p j) = b (ix2 0 j) :=
  Cert.LibDenseRow.biasRow_apply 5000 256 b h p j

/-- A row of 128 unit parameters broadcast down 5000 rows reads its column. -/
theorem row128 (b : FVec Ideal S1x128 .f32) (h : S1x128.Broadcasts S5000x128) (p : Fin 5000) (c : Fin 128) :
    broadcastTo S5000x128 b h (ix2 p c) = b (ix2 0 c) :=
  Cert.LibDenseRow.biasRow_apply 5000 128 b h p c

/-- The one-entry bias broadcast down a column of 5000 reads its entry. -/
theorem row1 (b : FVec Ideal S1x1 .f32) (h : S1x1.Broadcasts S5000x1) (p : Fin 5000) (q : Fin 1) :
    broadcastTo S5000x1 b h (ix2 p q) = b (ix2 0 q) :=
  Cert.LibDenseRow.biasRow_apply 5000 1 b h p q

/-- The row sum of the head's last product, at row p. -/
theorem laneSum (x : FVec Ideal S5000x128 .f32) (h : S5000x128.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ c : Fin 128, x (ix2 p c) :=
  rowSum_apply x h hφ hacc p

/-- The row sums cast to a column, at (p, q). -/
theorem col5000 (x : FVec Ideal S5000 .f32) (h : S5000.ShapeCasts S5000x1) (p : Fin 5000) (q : Fin 1) :
    shapeCast S5000x1 x h (ix2 p q) = x (ix1 p) :=
  shapeCast_a_a1_apply x h p q

/-! ## Layer 0: 128 features in -/

theorem sage0_apply (v0 v3 : Vec Ideal S5000x128 .f32) (v5 v7 : Vec Ideal S256x128 .f32)
    (v12 v16 v18 v20 v22 : Vec Ideal S1x256 .f32) (p : Fin 5000) (j : Fin 256) :
    k0_pay1 (F := Ideal) v0 v3 v5 v7 v12 v16 v18 v20 v22 (ix2 p j)
      = Cert.Sage.sage (fun k => v0 (ix2 p k)) (fun k => v3 (ix2 p k)) (fun k => v5 (ix2 j k)) (fun k => v7 (ix2 j k))
          (v12 (ix2 0 j)) (v20 (ix2 0 j)) (v22 (ix2 0 j)) (v18 (ix2 0 j)) (v16 (ix2 0 j)) := by
  unfold k0_pay1
  simp only [maximumf_apply, addf_apply, subf_apply, mulf_apply, broadcast_apply, rsqrt_apply, shapeCast_self, mm128,
    row256, truncf_apply]
  rfl

/-! ## Layers 1 and 2: 256 features in, the same body -/

theorem sage1_apply (v0 v3 : Vec Ideal S5000x256 .f32) (v6 v8 : Vec Ideal S256x256 .f32)
    (v13 v17 v19 v21 v23 : Vec Ideal S1x256 .f32) (p : Fin 5000) (j : Fin 256) :
    k1_pay1 (F := Ideal) (k1_pay2 v0 v3 v6 v8 v13 v17 v19 v21 v23) k1_pay3 (ix2 p j)
      = Cert.Sage.sage (fun k => v0 (ix2 p k)) (fun k => v3 (ix2 p k)) (fun k => v6 (ix2 j k)) (fun k => v8 (ix2 j k))
          (v13 (ix2 0 j)) (v21 (ix2 0 j)) (v23 (ix2 0 j)) (v19 (ix2 0 j)) (v17 (ix2 0 j)) := by
  unfold k1_pay1 k1_pay2 k1_pay3
  simp only [maximumf_apply, addf_apply, subf_apply, mulf_apply, broadcast_apply, rsqrt_apply, shapeCast_self, mm256,
    row256, truncf_apply]
  rfl

theorem sage2_apply (v0 v3 : Vec Ideal S5000x256 .f32) (v6 v8 : Vec Ideal S256x256 .f32)
    (v13 v17 v19 v21 v23 : Vec Ideal S1x256 .f32) (p : Fin 5000) (j : Fin 256) :
    k2_pay1 (F := Ideal) (k2_pay2 v0 v3 v6 v8 v13 v17 v19 v21 v23) k2_pay3 (ix2 p j)
      = Cert.Sage.sage (fun k => v0 (ix2 p k)) (fun k => v3 (ix2 p k)) (fun k => v6 (ix2 j k)) (fun k => v8 (ix2 j k))
          (v13 (ix2 0 j)) (v21 (ix2 0 j)) (v23 (ix2 0 j)) (v19 (ix2 0 j)) (v17 (ix2 0 j)) := by
  unfold k2_pay1 k2_pay2 k2_pay3
  simp only [maximumf_apply, addf_apply, subf_apply, mulf_apply, broadcast_apply, rsqrt_apply, shapeCast_self, mm256,
    row256, truncf_apply]
  rfl

/-! ## The head -/

theorem head3_apply (v0 : Vec Ideal S5000x256 .f32) (v3 : Vec Ideal S256x256 .f32) (v6 : Vec Ideal S1x256 .f32)
    (v13 : Vec Ideal S128x256 .f32) (v16 v24 : Vec Ideal S1x128 .f32) (v29 : Vec Ideal S1x1 .f32) (p : Fin 5000) (q : Fin 1) :
    k3_pay1 (F := Ideal) v0 v3 v6 v13 v16 v24 v29 (ix2 p q)
      = Cert.Sage.headAt (fun a => v0 (ix2 p a)) v3 (fun b => v6 (ix2 0 b)) v13 (fun c => v16 (ix2 0 c))
          (fun c => v24 (ix2 0 c)) (v29 (ix2 0 0)) := by
  obtain rfl : q = 0 := Subsingleton.elim _ _
  unfold k3_pay1
  simp only [logistic_apply, addf_apply, shapeCast_self, row1, col5000]
  rw [laneSum]
  simp only [maximumf_apply, addf_apply, mulf_apply, broadcast_apply, mm256, mm256to128, row256, row128, truncf_apply]
  rfl

end Cert.BlockRows

end
-- ==== Proof.BlockArr0.lean ====
/-
  The first layer's tiled call: its output array.

  A tiled call cuts the node axis into ten blocks of 5000 consecutive rows; at point t it stages block t of each
  row-wise operand, the whole of every weight matrix and of every row of channel parameters, runs the body on the
  staged blocks and writes the body's result back as block t of the output. The body's result at one entry is the
  network's formula of the staged rows (the module of the bodies' arithmetic); a staged block's row p is the array's
  row t·5000 + p; the ten blocks tile the output array. So after the call the output array is the network's formula of
  the arrays the call was entered with — at every entry, whatever those arrays hold.
-/
import proofs.«110900_j10282151707180_2_alg».proof.Proof.Gen.KernelIdeal.Frame
import proofs.«110900_j10282151707180_2_alg».proof.Proof.SageSpec
import proofs.«110900_j10282151707180_2_alg».proof.Proof.BlockRows
import Idealize.ShloMosaic.Lib.Pipeline.Value
import Idealize.ShloMosaic.Lib.ValueIdx

set_option maxRecDepth 16384

noncomputable section

namespace Cert.KernelIdeal.Arr0

open Cert.KernelIdeal Cert.KernelIdeal.Gen Cert.BlockRows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The origin of a two-axis block. -/
theorem hz : (![0, 0] : Fin 2 → Nat) = fun _ => 0 := funext fun a => by fin_cases a <;> rfl

/-! ## Layer 0: what the tiled call leaves in its output array -/

theorem idx_facts0 : ∀ t : Fin cfg0.N,
      win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 9 ∧ win0_9.index t (1 : Fin 2) = 0 :=
  (by decide +kernel : ∀ t : Fin grid0.N, _)

/-- Every one of the ten row blocks is some point's. -/
theorem idx_onto0 : ∀ q0 : Fin 10, ∃ t : Fin cfg0.N, win0_9.index t = ![q0.val, 0] :=
  (by decide +kernel : ∀ q0 : Fin 10, ∃ t : Fin grid0.N, win0_9.index t = ![q0.val, 0])

/-- The node whose row is row p of point t's block. -/
def rowOf0 (t : Fin cfg0.N) (p : Fin 5000) : Fin 50000 :=
  ⟨win0_9.index t (0 : Fin 2) * 5000 + p.val, by
    have h := (idx_facts0 t).2.2.2.2.2.2.2.2.2.2.2.2.2.2.2.2.2.2.1
    have := p.isLt
    omega⟩

/-- Block t of window 0 is rows t·5000 … t·5000+4999 of its array. -/
theorem blk0_0 (c : Dev nD) (t : Fin cfg0.N) (p : Fin 5000) (k : Fin 128) :
    iblk0 V c 0 t (ix2 p k) = V c main_v21 (ix2 (rowOf0 t p) k) := by
  have h : ((cfg0.win 0).blk t).view.emb (ix2 p k) = ix2 (rowOf0 t p) k := by
    obtain ⟨e00, e01, e10, e11, -⟩ := idx_facts0 t
    funext a; apply Fin.ext
    match a with
    | ⟨0, _⟩ => show win0_0.index t (0 : Fin 2) * 5000 + 1 * p.val = win0_9.index t (0 : Fin 2) * 5000 + p.val; omega
    | ⟨1, _⟩ => show win0_0.index t (1 : Fin 2) * 128 + 1 * k.val = k.val; omega
  show V c main_v21 (((cfg0.win 0).blk t).view.emb (ix2 p k)) = _
  rw [h]

/-- Block t of window 1 is rows t·5000 … t·5000+4999 of its array. -/
theorem blk0_1 (c : Dev nD) (t : Fin cfg0.N) (p : Fin 5000) (k : Fin 128) :
    iblk0 V c 1 t (ix2 p k) = V c main_arg0 (ix2 (rowOf0 t p) k) := by
  have h : ((cfg0.win 1).blk t).view.emb (ix2 p k) = ix2 (rowOf0 t p) k := by
    obtain ⟨e00, e01, e10, e11, -⟩ := idx_facts0 t
    funext a; apply Fin.ext
    match a with
    | ⟨0, _⟩ => show win0_1.index t (0 : Fin 2) * 5000 + 1 * p.val = win0_9.index t (0 : Fin 2) * 5000 + p.val; omega
    | ⟨1, _⟩ => show win0_1.index t (1 : Fin 2) * 128 + 1 * k.val = k.val; omega
  show V c main_arg0 (((cfg0.win 1).blk t).view.emb (ix2 p k)) = _
  rw [h]

/-- Window 2 is its whole array at every point. -/
theorem blk0_2 (c : Dev nD) (t : Fin cfg0.N) (j : Fin 256) (k : Fin 128) :
    iblk0 V c 2 t (ix2 j k) = V c main_arg2 (ix2 j k) := by
  have h : ((cfg0.win 2).blk t).view.emb (ix2 j k) = ix2 j k := by
    have e := idx_facts0 t
    funext a; apply Fin.ext
    match a with
    | ⟨0, _⟩ => show win0_2.index t (0 : Fin 2) * 256 + 1 * j.val = j.val; omega
    | ⟨1, _⟩ => show win0_2.index t (1 : Fin 2) * 128 + 1 * k.val = k.val; omega
  show V c main_arg2 (((cfg0.win 2).blk t).view.emb (ix2 j k)) = _
  rw [h]

/-- Window 3 is its whole row of 256 channel parameters at every point. -/
theorem blk0_3 (c : Dev nD) (t : Fin cfg0.N) (j : Fin 256) :
    iblk0 V c 3 t (ix2 0 j) = V c main_v22 (ix2 0 j) := by
  have h : ((cfg0.win 3).blk t).view.emb (ix2 (0 : Fin 1) j) = ix2 (0 : Fin 1) j := by
    have e := idx_facts0 t
    funext a; apply Fin.ext
    match a with
    | ⟨0, _⟩ => show win0_3.index t (0 : Fin 2) * 1 + 1 * 0 = 0; omega
    | ⟨1, _⟩ => show win0_3.index t (1 : Fin 2) * 256 + 1 * j.val = j.val; omega
  show V c main_v22 (((cfg0.win 3).blk t).view.emb (ix2 (0 : Fin 1) j)) = _
  rw [h]

/-- Window 4 is its whole array at every point. -/
theorem blk0_4 (c : Dev nD) (t : Fin cfg0.N) (j : Fin 256) (k : Fin 128) :
    iblk0 V c 4 t (ix2 j k) = V c main_arg4 (ix2 j k) := by
  have h : ((cfg0.win 4).blk t).view.emb (ix2 j k) = ix2 j k := by
    have e := idx_facts0 t
    funext a; apply Fin.ext
    match a with
    | ⟨0, _⟩ => show win0_4.index t (0 : Fin 2) * 256 + 1 * j.val = j.val; omega
    | ⟨1, _⟩ => show win0_4.index t (1 : Fin 2) * 128 + 1 * k.val = k.val; omega
  show V c main_arg4 (((cfg0.win 4).blk t).view.emb (ix2 j k)) = _
  rw [h]

/-- Window 5 is its whole row of 256 channel parameters at every point. -/
theorem blk0_5 (c : Dev nD) (t : Fin cfg0.N) (j : Fin 256) :
    iblk0 V c 5 t (ix2 0 j) = V c main_v23 (ix2 0 j) := by
  have h : ((cfg0.win 5).blk t).view.emb (ix2 (0 : Fin 1) j) = ix2 (0 : Fin 1) j := by
    have e := idx_facts0 t
    funext a; apply Fin.ext
    match a with
    | ⟨0, _⟩ => show win0_5.index t (0 : Fin 2) * 1 + 1 * 0 = 0; omega
    | ⟨1, _⟩ => show win0_5.index t (1 : Fin 2) * 256 + 1 * j.val = j.val; omega
  show V c main_v23 (((cfg0.win 5).blk t).view.emb (ix2 (0 : Fin 1) j)) = _
  rw [h]

/-- Window 6 is its whole row of 256 channel parameters at every point. -/
theorem blk0_6 (c : Dev nD) (t : Fin cfg0.N) (j : Fin 256) :
    iblk0 V c 6 t (ix2 0 j) = V c main_v24 (ix2 0 j) := by
  have h : ((cfg0.win 6).blk t).view.emb (ix2 (0 : Fin 1) j) = ix2 (0 : Fin 1) j := by
    have e := idx_facts0 t
    funext a; apply Fin.ext
    match a with
    | ⟨0, _⟩ => show win0_6.index t (0 : Fin 2) * 1 + 1 * 0 = 0; omega
    | ⟨1, _⟩ => show win0_6.index t (1 : Fin 2) * 256 + 1 * j.val = j.val; omega
  show V c main_v24 (((cfg0.win 6).blk t).view.emb (ix2 (0 : Fin 1) j)) = _
  rw [h]

/-- Window 7 is its whole row of 256 channel parameters at every point. -/
theorem blk0_7 (c : Dev nD) (t : Fin cfg0.N) (j : Fin 256) :
    iblk0 V c 7 t (ix2 0 j) = V c main_v25 (ix2 0 j) := by
  have h : ((cfg0.win 7).blk t).view.emb (ix2 (0 : Fin 1) j) = ix2 (0 : Fin 1) j := by
    have e := idx_facts0 t
    funext a; apply Fin.ext
    match a with
    | ⟨0, _⟩ => show win0_7.index t (0 : Fin 2) * 1 + 1 * 0 = 0; omega
    | ⟨1, _⟩ => show win0_7.index t (1 : Fin 2) * 256 + 1 * j.val = j.val; omega
  show V c main_v25 (((cfg0.win 7).blk t).view.emb (ix2 (0 : Fin 1) j)) = _
  rw [h]

/-- Window 8 is its whole row of 256 channel parameters at every point. -/
theorem blk0_8 (c : Dev nD) (t : Fin cfg0.N) (j : Fin 256) :
    iblk0 V c 8 t (ix2 0 j) = V c main_v26 (ix2 0 j) := by
  have h : ((cfg0.win 8).blk t).view.emb (ix2 (0 : Fin 1) j) = ix2 (0 : Fin 1) j := by
    have e := idx_facts0 t
    funext a; apply Fin.ext
    match a with
    | ⟨0, _⟩ => show win0_8.index t (0 : Fin 2) * 1 + 1 * 0 = 0; omega
    | ⟨1, _⟩ => show win0_8.index t (1 : Fin 2) * 256 + 1 * j.val = j.val; omega
  show V c main_v26 (((cfg0.win 8).blk t).view.emb (ix2 (0 : Fin 1) j)) = _
  rw [h]

/-- Point t's output block, entry by entry, is the layer's formula at the node the entry belongs to. -/
theorem point0 (c : Dev nD) (t : Fin cfg0.N) (y : S5000x256.Idx) :
    k0_pay1 (F := Ideal) (iblk0 V c 0 t) (iblk0 V c 1 t) (iblk0 V c 2 t) (iblk0 V c 4 t) (iblk0 V c 3 t) (iblk0 V c 8 t) (iblk0 V c 7 t) (iblk0 V c 5 t) (iblk0 V c 6 t) y
      = (Cert.Sage.layer 50000 128 256 (V c main_v21) (V c main_arg0) (V c main_arg2) (V c main_arg4)
        (fun j => V c main_v22 (ix2 0 j)) (fun j => V c main_v23 (ix2 0 j)) (fun j => V c main_v24 (ix2 0 j))
        (fun j => V c main_v25 (ix2 0 j)) (fun j => V c main_v26 (ix2 0 j))) (((cfg0.win 9).blk t).view.emb y) := by
  obtain ⟨p, j, rfl⟩ : ∃ (p : Fin 5000) (j : Fin 256), y = ix2 p j := ⟨y 0, y 1, eq_ix2 y⟩
  have h : ((cfg0.win 9).blk t).view.emb (ix2 p j) = ix2 (rowOf0 t p) j := by
    have e := (idx_facts0 t).2.2.2.2.2.2.2.2.2.2.2.2.2.2.2.2.2.2.2
    funext a; apply Fin.ext
    match a with
    | ⟨0, _⟩ => show win0_9.index t (0 : Fin 2) * 5000 + 1 * p.val = win0_9.index t (0 : Fin 2) * 5000 + p.val; omega
    | ⟨1, _⟩ => show win0_9.index t (1 : Fin 2) * 256 + 1 * j.val = j.val; omega
  rw [h, Cert.Sage.layer_ix2]
  refine (sage0_apply _ _ _ _ _ _ _ _ _ p j).trans ?_
  simp only [blk0_0 V c t, blk0_1 V c t, blk0_2 V c t, blk0_3 V c t, blk0_4 V c t, blk0_5 V c t, blk0_6 V c t, blk0_7 V c t, blk0_8 V c t]
  rfl

/-- What point t writes back is block t of the layer's output array. -/
theorem flushed0 (c : Dev nD) (t : Fin cfg0.N) :
    (dat0 V c).flushed 9 t = ((cfg0.win 9).blk t).view.read (Elt Ideal)
      (Cert.Sage.layer 50000 128 256 (V c main_v21) (V c main_arg0) (V c main_arg2) (V c main_arg4)
        (fun j => V c main_v22 (ix2 0 j)) (fun j => V c main_v23 (ix2 0 j)) (fun j => V c main_v24 (ix2 0 j))
        (fun j => V c main_v25 (ix2 0 j)) (fun j => V c main_v26 (ix2 0 j))) := by
  show (cfg0.win 9).cut (grid0.coords t) ((dat0 V c).after 9 t) = _
  rw [after0_9]
  unfold out0_9
  rw [View.canon_unit_zero hz]
  simp only [View.ld_unit_zero (S := S5000x128) hz, View.ld_unit_zero (S := S256x128) hz, View.ld_unit_zero (S := S1x256) hz, View.ld_unit_zero (S := S5000x256) hz]
  funext y
  exact point0 V c t y

/-- An index of the output array is in point t's block iff each coordinate is in the block's range on its axis. -/
theorem mem_blk0 (t : Fin cfg0.N) (i : S50000x256.Idx) :
    i ∈ ((cfg0.win 9).blk t).view.set ↔ ∀ a : Fin 2, win0_9.index t a * S5000x256.size a ≤ (i a).val ∧ (i a).val < win0_9.index t a * S5000x256.size a + S5000x256.size a := by
  show i ∈ ((View.whole main_v27).slice (win0_9.rect t)).set ↔ _
  rw [View.set_slice_whole, Rect.mem_set_unit]
  exact Iff.rfl

/-- The ten row blocks tile the array: row r lies in block r / 5000. -/
theorem cover0 (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  obtain ⟨t, ht⟩ := idx_onto0 ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk0]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 256 ≤ (i 1).val ∧ (i 1).val < win0_9.index t (1 : Fin 2) * 256 + 256; omega

/-- After the tiled call the output array is the layer's output, whatever the arrays it was entered with. -/
theorem arr0 (c : Dev nD) :
    (dat0 V c).arrAt 9 cfg0.N = (Cert.Sage.layer 50000 128 256 (V c main_v21) (V c main_arg0) (V c main_arg2) (V c main_arg4)
        (fun j => V c main_v22 (ix2 0 j)) (fun j => V c main_v23 (ix2 0 j)) (fun j => V c main_v24 (ix2 0 j))
        (fun j => V c main_v25 (ix2 0 j)) (fun j => V c main_v26 (ix2 0 j))) :=
  (dat0 V c).arrAt_eq_of_cover 9 _ (fun t _ => flushed0 V c t) cover0

end Cert.KernelIdeal.Arr0

end
-- ==== Proof.Fold0.lean ====
/-
  The first layer, read off the fold.

  The first stretch computes the neighbourhood mean of the input features and recasts the five channel-parameter
  vectors as rows; the first tiled call then leaves the layer's formula of those arrays in its output. Reading the
  stretch's results back gives the first layer's output as a function of the arguments.
-/
import proofs.«110900_j10282151707180_2_alg».proof.Proof.Gen.KernelIdeal.Frame
import proofs.«110900_j10282151707180_2_alg».proof.Proof.KernelAgg
import proofs.«110900_j10282151707180_2_alg».proof.Proof.FoldBase
import proofs.«110900_j10282151707180_2_alg».proof.Proof.SageSpec
import Idealize.ShloMosaic.Lib.StableHlo.Run
import Idealize.ShloMosaic.Lib.ValueLayout
import Idealize.ShloMosaic.Lib.ValueIdx
import proofs.«110900_j10282151707180_2_alg».proof.Proof.BlockArr0

set_option maxRecDepth 16384

noncomputable section

namespace Cert.KernelIdeal.Stage0

open Cert.KernelIdeal Cert.KernelIdeal.Gen Cert.KernelIdeal.Fold
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

set_option maxHeartbeats 4000000 in
/-- The aggregated input of the first call is the neighbourhood mean of the features. -/
theorem mean0 : V1 m ρ c main_v21 = Agg.agg128 (Agg.src (m ((c : Thread nD τ).loc main_arg1))) (Agg.dst (m ((c : Thread nD τ).loc main_arg1))) (Agg.cnt (Agg.dst (m ((c : Thread nD τ).loc main_arg1)))) (m ((c : Thread nD τ).loc main_arg0)) := by
  unfold Agg.agg128 Agg.src Agg.dst Agg.cnt
  dsimp only [V1, W1, hostOps0]; after_results_simp; rfl

theorem x0 : V1 m ρ c main_arg0 = m ((c : Thread nD τ).loc main_arg0) := keep1 m ρ c (b := main_arg0) (by decide)
theorem wl0 : V1 m ρ c main_arg2 = m ((c : Thread nD τ).loc main_arg2) := keep1 m ρ c (b := main_arg2) (by decide)
theorem wr0 : V1 m ρ c main_arg4 = m ((c : Thread nD τ).loc main_arg4) := keep1 m ρ c (b := main_arg4) (by decide)

set_option maxHeartbeats 4000000 in
/-- The row the call is given is the parameter vector, recast with a leading unit axis. -/
theorem bl0 (j : Fin 256) : V1 m ρ c main_v22 (ix2 0 j) = m ((c : Thread nD τ).loc main_arg3) (ix1 j) := by
  have e : V1 m ρ c main_v22 = fun i => shapeCast S1x256 (m ((c : Thread nD τ).loc main_arg3)) shapeCasts_S256_S1x256 i := by
    dsimp only [V1, W1, hostOps0]; after_results_simp; rfl
  rw [e]
  exact shapeCast_a_1a_apply _ _ 0 j

set_option maxHeartbeats 4000000 in
/-- The row the call is given is the parameter vector, recast with a leading unit axis. -/
theorem g0 (j : Fin 256) : V1 m ρ c main_v23 (ix2 0 j) = m ((c : Thread nD τ).loc main_arg5) (ix1 j) := by
  have e : V1 m ρ c main_v23 = fun i => shapeCast S1x256 (m ((c : Thread nD τ).loc main_arg5)) shapeCasts_S256_S1x256 i := by
    dsimp only [V1, W1, hostOps0]; after_results_simp; rfl
  rw [e]
  exact shapeCast_a_1a_apply _ _ 0 j

set_option maxHeartbeats 4000000 in
/-- The row the call is given is the parameter vector, recast with a leading unit axis. -/
theorem be0 (j : Fin 256) : V1 m ρ c main_v24 (ix2 0 j) = m ((c : Thread nD τ).loc main_arg6) (ix1 j) := by
  have e : V1 m ρ c main_v24 = fun i => shapeCast S1x256 (m ((c : Thread nD τ).loc main_arg6)) shapeCasts_S256_S1x256 i := by
    dsimp only [V1, W1, hostOps0]; after_results_simp; rfl
  rw [e]
  exact shapeCast_a_1a_apply _ _ 0 j

set_option maxHeartbeats 4000000 in
/-- The row the call is given is the parameter vector, recast with a leading unit axis. -/
theorem rm0 (j : Fin 256) : V1 m ρ c main_v25 (ix2 0 j) = m ((c : Thread nD τ).loc main_arg7) (ix1 j) := by
  have e : V1 m ρ c main_v25 = fun i => shapeCast S1x256 (m ((c : Thread nD τ).loc main_arg7)) shapeCasts_S256_S1x256 i := by
    dsimp only [V1, W1, hostOps0]; after_results_simp; rfl
  rw [e]
  exact shapeCast_a_1a_apply _ _ 0 j

set_option maxHeartbeats 4000000 in
/-- The row the call is given is the parameter vector, recast with a leading unit axis. -/
theorem rv0 (j : Fin 256) : V1 m ρ c main_v26 (ix2 0 j) = m ((c : Thread nD τ).loc main_arg8) (ix1 j) := by
  have e : V1 m ρ c main_v26 = fun i => shapeCast S1x256 (m ((c : Thread nD τ).loc main_arg8)) shapeCasts_S256_S1x256 i := by
    dsimp only [V1, W1, hostOps0]; after_results_simp; rfl
  rw [e]
  exact shapeCast_a_1a_apply _ _ 0 j

/-- After the first call its output array is the first layer of the arguments. -/
theorem stage0 : W2 m ρ c (Proc.devRef .tc main_v27)
    = Cert.Sage.layer 50000 128 256 (Agg.agg128 (Agg.src (m ((c : Thread nD τ).loc main_arg1))) (Agg.dst (m ((c : Thread nD τ).loc main_arg1))) (Agg.cnt (Agg.dst (m ((c : Thread nD τ).loc main_arg1)))) (m ((c : Thread nD τ).loc main_arg0))) (m ((c : Thread nD τ).loc main_arg0))
        (m ((c : Thread nD τ).loc main_arg2)) (m ((c : Thread nD τ).loc main_arg4)) (fun j => m ((c : Thread nD τ).loc main_arg3) (ix1 j)) (fun j => m ((c : Thread nD τ).loc main_arg5) (ix1 j))
        (fun j => m ((c : Thread nD τ).loc main_arg6) (ix1 j)) (fun j => m ((c : Thread nD τ).loc main_arg7) (ix1 j)) (fun j => m ((c : Thread nD τ).loc main_arg8) (ix1 j)) := by
  rw [show W2 m ρ c (Proc.devRef .tc main_v27) = (dat0 (V1 m ρ) c).arrAt 9 cfg0.N from W2_arr m ρ c 9, Arr0.arr0 (V1 m ρ) c]
  simp only [mean0 m ρ c, x0 m ρ c, wl0 m ρ c, wr0 m ρ c, bl0 m ρ c, g0 m ρ c, be0 m ρ c, rm0 m ρ c, rv0 m ρ c]

end Cert.KernelIdeal.Stage0

end
-- ==== Proof.BlockArr1.lean ====
/-
  The second layer's tiled call: its output array.

  A tiled call cuts the node axis into ten blocks of 5000 consecutive rows; at point t it stages block t of each
  row-wise operand, the whole of every weight matrix and of every row of channel parameters, runs the body on the
  staged blocks and writes the body's result back as block t of the output. The body's result at one entry is the
  network's formula of the staged rows (the module of the bodies' arithmetic); a staged block's row p is the array's
  row t·5000 + p; the ten blocks tile the output array. So after the call the output array is the network's formula of
  the arrays the call was entered with — at every entry, whatever those arrays hold.
-/
import proofs.«110900_j10282151707180_2_alg».proof.Proof.Gen.KernelIdeal.Frame
import proofs.«110900_j10282151707180_2_alg».proof.Proof.SageSpec
import proofs.«110900_j10282151707180_2_alg».proof.Proof.BlockRows
import Idealize.ShloMosaic.Lib.Pipeline.Value
import Idealize.ShloMosaic.Lib.ValueIdx

set_option maxRecDepth 16384

noncomputable section

namespace Cert.KernelIdeal.Arr1

open Cert.KernelIdeal Cert.KernelIdeal.Gen Cert.BlockRows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The origin of a two-axis block. -/
theorem hz : (![0, 0] : Fin 2 → Nat) = fun _ => 0 := funext fun a => by fin_cases a <;> rfl

/-! ## Layer 1: what the tiled call leaves in its output array -/

theorem idx_facts1 : ∀ t : Fin cfg1.N,
      win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 9 ∧ win1_9.index t (1 : Fin 2) = 0 :=
  (by decide +kernel : ∀ t : Fin grid1.N, _)

/-- Every one of the ten row blocks is some point's. -/
theorem idx_onto1 : ∀ q0 : Fin 10, ∃ t : Fin cfg1.N, win1_9.index t = ![q0.val, 0] :=
  (by decide +kernel : ∀ q0 : Fin 10, ∃ t : Fin grid1.N, win1_9.index t = ![q0.val, 0])

/-- The node whose row is row p of point t's block. -/
def rowOf1 (t : Fin cfg1.N) (p : Fin 5000) : Fin 50000 :=
  ⟨win1_9.index t (0 : Fin 2) * 5000 + p.val, by
    have h := (idx_facts1 t).2.2.2.2.2.2.2.2.2.2.2.2.2.2.2.2.2.2.1
    have := p.isLt
    omega⟩

/-- Block t of window 0 is rows t·5000 … t·5000+4999 of its array. -/
theorem blk1_0 (c : Dev nD) (t : Fin cfg1.N) (p : Fin 5000) (k : Fin 256) :
    iblk1 V c 0 t (ix2 p k) = V c main_v39 (ix2 (rowOf1 t p) k) := by
  have h : ((cfg1.win 0).blk t).view.emb (ix2 p k) = ix2 (rowOf1 t p) k := by
    obtain ⟨e00, e01, e10, e11, -⟩ := idx_facts1 t
    funext a; apply Fin.ext
    match a with
    | ⟨0, _⟩ => show win1_0.index t (0 : Fin 2) * 5000 + 1 * p.val = win1_9.index t (0 : Fin 2) * 5000 + p.val; omega
    | ⟨1, _⟩ => show win1_0.index t (1 : Fin 2) * 256 + 1 * k.val = k.val; omega
  show V c main_v39 (((cfg1.win 0).blk t).view.emb (ix2 p k)) = _
  rw [h]

/-- Block t of window 1 is rows t·5000 … t·5000+4999 of its array. -/
theorem blk1_1 (c : Dev nD) (t : Fin cfg1.N) (p : Fin 5000) (k : Fin 256) :
    iblk1 V c 1 t (ix2 p k) = V c main_v27 (ix2 (rowOf1 t p) k) := by
  have h : ((cfg1.win 1).blk t).view.emb (ix2 p k) = ix2 (rowOf1 t p) k := by
    obtain ⟨e00, e01, e10, e11, -⟩ := idx_facts1 t
    funext a; apply Fin.ext
    match a with
    | ⟨0, _⟩ => show win1_1.index t (0 : Fin 2) * 5000 + 1 * p.val = win1_9.index t (0 : Fin 2) * 5000 + p.val; omega
    | ⟨1, _⟩ => show win1_1.index t (1 : Fin 2) * 256 + 1 * k.val = k.val; omega
  show V c main_v27 (((cfg1.win 1).blk t).view.emb (ix2 p k)) = _
  rw [h]

/-- Window 2 is its whole array at every point. -/
theorem blk1_2 (c : Dev nD) (t : Fin cfg1.N) (j : Fin 256) (k : Fin 256) :
    iblk1 V c 2 t (ix2 j k) = V c main_arg9 (ix2 j k) := by
  have h : ((cfg1.win 2).blk t).view.emb (ix2 j k) = ix2 j k := by
    have e := idx_facts1 t
    funext a; apply Fin.ext
    match a with
    | ⟨0, _⟩ => show win1_2.index t (0 : Fin 2) * 256 + 1 * j.val = j.val; omega
    | ⟨1, _⟩ => show win1_2.index t (1 : Fin 2) * 256 + 1 * k.val = k.val; omega
  show V c main_arg9 (((cfg1.win 2).blk t).view.emb (ix2 j k)) = _
  rw [h]

/-- Window 3 is its whole row of 256 channel parameters at every point. -/
theorem blk1_3 (c : Dev nD) (t : Fin cfg1.N) (j : Fin 256) :
    iblk1 V c 3 t (ix2 0 j) = V c main_v40 (ix2 0 j) := by
  have h : ((cfg1.win 3).blk t).view.emb (ix2 (0 : Fin 1) j) = ix2 (0 : Fin 1) j := by
    have e := idx_facts1 t
    funext a; apply Fin.ext
    match a with
    | ⟨0, _⟩ => show win1_3.index t (0 : Fin 2) * 1 + 1 * 0 = 0; omega
    | ⟨1, _⟩ => show win1_3.index t (1 : Fin 2) * 256 + 1 * j.val = j.val; omega
  show V c main_v40 (((cfg1.win 3).blk t).view.emb (ix2 (0 : Fin 1) j)) = _
  rw [h]

/-- Window 4 is its whole array at every point. -/
theorem blk1_4 (c : Dev nD) (t : Fin cfg1.N) (j : Fin 256) (k : Fin 256) :
    iblk1 V c 4 t (ix2 j k) = V c main_arg11 (ix2 j k) := by
  have h : ((cfg1.win 4).blk t).view.emb (ix2 j k) = ix2 j k := by
    have e := idx_facts1 t
    funext a; apply Fin.ext
    match a with
    | ⟨0, _⟩ => show win1_4.index t (0 : Fin 2) * 256 + 1 * j.val = j.val; omega
    | ⟨1, _⟩ => show win1_4.index t (1 : Fin 2) * 256 + 1 * k.val = k.val; omega
  show V c main_arg11 (((cfg1.win 4).blk t).view.emb (ix2 j k)) = _
  rw [h]

/-- Window 5 is its whole row of 256 channel parameters at every point. -/
theorem blk1_5 (c : Dev nD) (t : Fin cfg1.N) (j : Fin 256) :
    iblk1 V c 5 t (ix2 0 j) = V c main_v41 (ix2 0 j) := by
  have h : ((cfg1.win 5).blk t).view.emb (ix2 (0 : Fin 1) j) = ix2 (0 : Fin 1) j := by
    have e := idx_facts1 t
    funext a; apply Fin.ext
    match a with
    | ⟨0, _⟩ => show win1_5.index t (0 : Fin 2) * 1 + 1 * 0 = 0; omega
    | ⟨1, _⟩ => show win1_5.index t (1 : Fin 2) * 256 + 1 * j.val = j.val; omega
  show V c main_v41 (((cfg1.win 5).blk t).view.emb (ix2 (0 : Fin 1) j)) = _
  rw [h]

/-- Window 6 is its whole row of 256 channel parameters at every point. -/
theorem blk1_6 (c : Dev nD) (t : Fin cfg1.N) (j : Fin 256) :
    iblk1 V c 6 t (ix2 0 j) = V c main_v42 (ix2 0 j) := by
  have h : ((cfg1.win 6).blk t).view.emb (ix2 (0 : Fin 1) j) = ix2 (0 : Fin 1) j := by
    have e := idx_facts1 t
    funext a; apply Fin.ext
    match a with
    | ⟨0, _⟩ => show win1_6.index t (0 : Fin 2) * 1 + 1 * 0 = 0; omega
    | ⟨1, _⟩ => show win1_6.index t (1 : Fin 2) * 256 + 1 * j.val = j.val; omega
  show V c main_v42 (((cfg1.win 6).blk t).view.emb (ix2 (0 : Fin 1) j)) = _
  rw [h]

/-- Window 7 is its whole row of 256 channel parameters at every point. -/
theorem blk1_7 (c : Dev nD) (t : Fin cfg1.N) (j : Fin 256) :
    iblk1 V c 7 t (ix2 0 j) = V c main_v43 (ix2 0 j) := by
  have h : ((cfg1.win 7).blk t).view.emb (ix2 (0 : Fin 1) j) = ix2 (0 : Fin 1) j := by
    have e := idx_facts1 t
    funext a; apply Fin.ext
    match a with
    | ⟨0, _⟩ => show win1_7.index t (0 : Fin 2) * 1 + 1 * 0 = 0; omega
    | ⟨1, _⟩ => show win1_7.index t (1 : Fin 2) * 256 + 1 * j.val = j.val; omega
  show V c main_v43 (((cfg1.win 7).blk t).view.emb (ix2 (0 : Fin 1) j)) = _
  rw [h]

/-- Window 8 is its whole row of 256 channel parameters at every point. -/
theorem blk1_8 (c : Dev nD) (t : Fin cfg1.N) (j : Fin 256) :
    iblk1 V c 8 t (ix2 0 j) = V c main_v44 (ix2 0 j) := by
  have h : ((cfg1.win 8).blk t).view.emb (ix2 (0 : Fin 1) j) = ix2 (0 : Fin 1) j := by
    have e := idx_facts1 t
    funext a; apply Fin.ext
    match a with
    | ⟨0, _⟩ => show win1_8.index t (0 : Fin 2) * 1 + 1 * 0 = 0; omega
    | ⟨1, _⟩ => show win1_8.index t (1 : Fin 2) * 256 + 1 * j.val = j.val; omega
  show V c main_v44 (((cfg1.win 8).blk t).view.emb (ix2 (0 : Fin 1) j)) = _
  rw [h]

/-- Point t's output block, entry by entry, is the layer's formula at the node the entry belongs to. -/
theorem point1 (c : Dev nD) (t : Fin cfg1.N) (y : S5000x256.Idx) :
    k1_pay1 (F := Ideal) (k1_pay2 (iblk1 V c 0 t) (iblk1 V c 1 t) (iblk1 V c 2 t) (iblk1 V c 4 t) (iblk1 V c 3 t) (iblk1 V c 8 t) (iblk1 V c 7 t) (iblk1 V c 5 t) (iblk1 V c 6 t)) k1_pay3 y
      = (Cert.Sage.layer 50000 256 256 (V c main_v39) (V c main_v27) (V c main_arg9) (V c main_arg11)
        (fun j => V c main_v40 (ix2 0 j)) (fun j => V c main_v41 (ix2 0 j)) (fun j => V c main_v42 (ix2 0 j))
        (fun j => V c main_v43 (ix2 0 j)) (fun j => V c main_v44 (ix2 0 j))) (((cfg1.win 9).blk t).view.emb y) := by
  obtain ⟨p, j, rfl⟩ : ∃ (p : Fin 5000) (j : Fin 256), y = ix2 p j := ⟨y 0, y 1, eq_ix2 y⟩
  have h : ((cfg1.win 9).blk t).view.emb (ix2 p j) = ix2 (rowOf1 t p) j := by
    have e := (idx_facts1 t).2.2.2.2.2.2.2.2.2.2.2.2.2.2.2.2.2.2.2
    funext a; apply Fin.ext
    match a with
    | ⟨0, _⟩ => show win1_9.index t (0 : Fin 2) * 5000 + 1 * p.val = win1_9.index t (0 : Fin 2) * 5000 + p.val; omega
    | ⟨1, _⟩ => show win1_9.index t (1 : Fin 2) * 256 + 1 * j.val = j.val; omega
  rw [h, Cert.Sage.layer_ix2]
  refine (sage1_apply _ _ _ _ _ _ _ _ _ p j).trans ?_
  simp only [blk1_0 V c t, blk1_1 V c t, blk1_2 V c t, blk1_3 V c t, blk1_4 V c t, blk1_5 V c t, blk1_6 V c t, blk1_7 V c t, blk1_8 V c t]
  rfl

/-- What point t writes back is block t of the layer's output array. -/
theorem flushed1 (c : Dev nD) (t : Fin cfg1.N) :
    (dat1 V c).flushed 9 t = ((cfg1.win 9).blk t).view.read (Elt Ideal)
      (Cert.Sage.layer 50000 256 256 (V c main_v39) (V c main_v27) (V c main_arg9) (V c main_arg11)
        (fun j => V c main_v40 (ix2 0 j)) (fun j => V c main_v41 (ix2 0 j)) (fun j => V c main_v42 (ix2 0 j))
        (fun j => V c main_v43 (ix2 0 j)) (fun j => V c main_v44 (ix2 0 j))) := by
  show (cfg1.win 9).cut (grid1.coords t) ((dat1 V c).after 9 t) = _
  rw [after1_9]
  unfold out1_9
  rw [View.canon_unit_zero hz]
  simp only [View.ld_unit_zero (S := S5000x256) hz, View.ld_unit_zero (S := S256x256) hz, View.ld_unit_zero (S := S1x256) hz]
  funext y
  exact point1 V c t y

/-- An index of the output array is in point t's block iff each coordinate is in the block's range on its axis. -/
theorem mem_blk1 (t : Fin cfg1.N) (i : S50000x256.Idx) :
    i ∈ ((cfg1.win 9).blk t).view.set ↔ ∀ a : Fin 2, win1_9.index t a * S5000x256.size a ≤ (i a).val ∧ (i a).val < win1_9.index t a * S5000x256.size a + S5000x256.size a := by
  show i ∈ ((View.whole main_v45).slice (win1_9.rect t)).set ↔ _
  rw [View.set_slice_whole, Rect.mem_set_unit]
  exact Iff.rfl

/-- The ten row blocks tile the array: row r lies in block r / 5000. -/
theorem cover1 (i : S50000x256.Idx) :
    ∃ t : Fin cfg1.N, (cfg1.win 9).flush t = true ∧ i ∈ ((cfg1.win 9).blk t).view.set := by
  have hi0 : (i 0).val < 50000 := (i 0).isLt
  have hi1 : (i 1).val < 256 := (i 1).isLt
  obtain ⟨t, ht⟩ := idx_onto1 ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk1]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 256 ≤ (i 1).val ∧ (i 1).val < win1_9.index t (1 : Fin 2) * 256 + 256; omega

/-- After the tiled call the output array is the layer's output, whatever the arrays it was entered with. -/
theorem arr1 (c : Dev nD) :
    (dat1 V c).arrAt 9 cfg1.N = (Cert.Sage.layer 50000 256 256 (V c main_v39) (V c main_v27) (V c main_arg9) (V c main_arg11)
        (fun j => V c main_v40 (ix2 0 j)) (fun j => V c main_v41 (ix2 0 j)) (fun j => V c main_v42 (ix2 0 j))
        (fun j => V c main_v43 (ix2 0 j)) (fun j => V c main_v44 (ix2 0 j))) :=
  (dat1 V c).arrAt_eq_of_cover 9 _ (fun t _ => flushed1 V c t) cover1

end Cert.KernelIdeal.Arr1

end
-- ==== Proof.Fold1.lean ====
/-
  The second layer, read off the fold.

  The stretch before the second tiled call computes the neighbourhood mean of the previous layer's output — with the
  edge columns and the incoming-edge counts computed before the first call — and recasts the layer's five
  channel-parameter vectors as rows; the call then leaves the layer's formula of those arrays in its output. The
  previous layer's output enters as an arbitrary array X: the statement is one layer deep.
-/
import proofs.«110900_j10282151707180_2_alg».proof.Proof.Gen.KernelIdeal.Frame
import proofs.«110900_j10282151707180_2_alg».proof.Proof.KernelAgg
import proofs.«110900_j10282151707180_2_alg».proof.Proof.FoldBase
import proofs.«110900_j10282151707180_2_alg».proof.Proof.SageSpec
import Idealize.ShloMosaic.Lib.StableHlo.Run
import Idealize.ShloMosaic.Lib.ValueLayout
import Idealize.ShloMosaic.Lib.ValueIdx
import proofs.«110900_j10282151707180_2_alg».proof.Proof.BlockArr1

set_option maxRecDepth 16384

noncomputable section

namespace Cert.KernelIdeal.Stage1

open Cert.KernelIdeal Cert.KernelIdeal.Gen Cert.KernelIdeal.Fold
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

variable (X : (⟨2, ![50000, 256]⟩ : Shape).Idx → EReal) (hX : W2 m ρ c (Proc.devRef .tc main_v27) = X)

set_option maxHeartbeats 4000000 in
include hX in
/-- The aggregated input of the call is the neighbourhood mean of the previous layer's output. -/
theorem mean : V3 m ρ c main_v39 = Agg.agg256 (Agg.src (m ((c : Thread nD τ).loc main_arg1))) (Agg.dst (m ((c : Thread nD τ).loc main_arg1))) (Agg.cnt (Agg.dst (m ((c : Thread nD τ).loc main_arg1)))) X := by
  have e : V3 m ρ c main_v39 = Agg.agg256 (W2 m ρ c (Proc.devRef .tc main_v1)) (W2 m ρ c (Proc.devRef .tc main_v3))
      (W2 m ρ c (Proc.devRef .tc main_v9)) (W2 m ρ c (Proc.devRef .tc main_v27)) := by
    dsimp only [V3, W3, hostOps1]; after_results_simp; rfl
  rw [e, src2 m ρ c, dst2 m ρ c, cnt2 m ρ c, hX]

set_option maxHeartbeats 4000000 in
include hX in
/-- The stretch leaves the previous layer's output alone. -/
theorem xin : V3 m ρ c main_v27 = X := by
  refine Eq.trans ?_ hX
  dsimp only [V3, W3, hostOps1]; after_results_simp

theorem wl : V3 m ρ c main_arg9 = m ((c : Thread nD τ).loc main_arg9) := keep3 m ρ c (b := main_arg9) (by decide)
theorem wr : V3 m ρ c main_arg11 = m ((c : Thread nD τ).loc main_arg11) := keep3 m ρ c (b := main_arg11) (by decide)

set_option maxHeartbeats 4000000 in
/-- The row the call is given is the parameter vector, recast with a leading unit axis. -/
theorem bl (j : Fin 256) : V3 m ρ c main_v40 (ix2 0 j) = m ((c : Thread nD τ).loc main_arg10) (ix1 j) := by
  have e : V3 m ρ c main_v40 = fun i => shapeCast S1x256 (W2 m ρ c (Proc.devRef .tc main_arg10)) shapeCasts_S256_S1x256 i := by
    dsimp only [V3, W3, hostOps1]; after_results_simp; rfl
  rw [e, keep2 m ρ c (b := main_arg10) (by decide)]
  exact shapeCast_a_1a_apply _ _ 0 j

set_option maxHeartbeats 4000000 in
/-- The row the call is given is the parameter vector, recast with a leading unit axis. -/
theorem g (j : Fin 256) : V3 m ρ c main_v41 (ix2 0 j) = m ((c : Thread nD τ).loc main_arg12) (ix1 j) := by
  have e : V3 m ρ c main_v41 = fun i => shapeCast S1x256 (W2 m ρ c (Proc.devRef .tc main_arg12)) shapeCasts_S256_S1x256 i := by
    dsimp only [V3, W3, hostOps1]; after_results_simp; rfl
  rw [e, keep2 m ρ c (b := main_arg12) (by decide)]
  exact shapeCast_a_1a_apply _ _ 0 j

set_option maxHeartbeats 4000000 in
/-- The row the call is given is the parameter vector, recast with a leading unit axis. -/
theorem be (j : Fin 256) : V3 m ρ c main_v42 (ix2 0 j) = m ((c : Thread nD τ).loc main_arg13) (ix1 j) := by
  have e : V3 m ρ c main_v42 = fun i => shapeCast S1x256 (W2 m ρ c (Proc.devRef .tc main_arg13)) shapeCasts_S256_S1x256 i := by
    dsimp only [V3, W3, hostOps1]; after_results_simp; rfl
  rw [e, keep2 m ρ c (b := main_arg13) (by decide)]
  exact shapeCast_a_1a_apply _ _ 0 j

set_option maxHeartbeats 4000000 in
/-- The row the call is given is the parameter vector, recast with a leading unit axis. -/
theorem rm (j : Fin 256) : V3 m ρ c main_v43 (ix2 0 j) = m ((c : Thread nD τ).loc main_arg14) (ix1 j) := by
  have e : V3 m ρ c main_v43 = fun i => shapeCast S1x256 (W2 m ρ c (Proc.devRef .tc main_arg14)) shapeCasts_S256_S1x256 i := by
    dsimp only [V3, W3, hostOps1]; after_results_simp; rfl
  rw [e, keep2 m ρ c (b := main_arg14) (by decide)]
  exact shapeCast_a_1a_apply _ _ 0 j

set_option maxHeartbeats 4000000 in
/-- The row the call is given is the parameter vector, recast with a leading unit axis. -/
theorem rv (j : Fin 256) : V3 m ρ c main_v44 (ix2 0 j) = m ((c : Thread nD τ).loc main_arg15) (ix1 j) := by
  have e : V3 m ρ c main_v44 = fun i => shapeCast S1x256 (W2 m ρ c (Proc.devRef .tc main_arg15)) shapeCasts_S256_S1x256 i := by
    dsimp only [V3, W3, hostOps1]; after_results_simp; rfl
  rw [e, keep2 m ρ c (b := main_arg15) (by decide)]
  exact shapeCast_a_1a_apply _ _ 0 j

include hX in
/-- After the call its output array is the layer of the previous layer's output and of the arguments. -/
theorem stage : W4 m ρ c (Proc.devRef .tc main_v45)
    = Cert.Sage.layer 50000 256 256 (Agg.agg256 (Agg.src (m ((c : Thread nD τ).loc main_arg1))) (Agg.dst (m ((c : Thread nD τ).loc main_arg1))) (Agg.cnt (Agg.dst (m ((c : Thread nD τ).loc main_arg1)))) X) X
        (m ((c : Thread nD τ).loc main_arg9)) (m ((c : Thread nD τ).loc main_arg11)) (fun j => m ((c : Thread nD τ).loc main_arg10) (ix1 j)) (fun j => m ((c : Thread nD τ).loc main_arg12) (ix1 j)) (fun j => m ((c : Thread nD τ).loc main_arg13) (ix1 j)) (fun j => m ((c : Thread nD τ).loc main_arg14) (ix1 j)) (fun j => m ((c : Thread nD τ).loc main_arg15) (ix1 j)) := by
  rw [show W4 m ρ c (Proc.devRef .tc main_v45) = (dat1 (V3 m ρ) c).arrAt 9 cfg1.N from W4_arr m ρ c 9, Arr1.arr1 (V3 m ρ) c]
  simp only [mean m ρ c X hX, xin m ρ c X hX, wl m ρ c, wr m ρ c, bl m ρ c, g m ρ c, be m ρ c, rm m ρ c, rv m ρ c]

end Cert.KernelIdeal.Stage1

end
-- ==== Proof.BlockArr2.lean ====
/-
  The third layer's tiled call: its output array.

  A tiled call cuts the node axis into ten blocks of 5000 consecutive rows; at point t it stages block t of each
  row-wise operand, the whole of every weight matrix and of every row of channel parameters, runs the body on the
  staged blocks and writes the body's result back as block t of the output. The body's result at one entry is the
  network's formula of the staged rows (the module of the bodies' arithmetic); a staged block's row p is the array's
  row t·5000 + p; the ten blocks tile the output array. So after the call the output array is the network's formula of
  the arrays the call was entered with — at every entry, whatever those arrays hold.
-/
import proofs.«110900_j10282151707180_2_alg».proof.Proof.Gen.KernelIdeal.Frame
import proofs.«110900_j10282151707180_2_alg».proof.Proof.SageSpec
import proofs.«110900_j10282151707180_2_alg».proof.Proof.BlockRows
import Idealize.ShloMosaic.Lib.Pipeline.Value
import Idealize.ShloMosaic.Lib.ValueIdx

set_option maxRecDepth 16384

noncomputable section

namespace Cert.KernelIdeal.Arr2

open Cert.KernelIdeal Cert.KernelIdeal.Gen Cert.BlockRows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The origin of a two-axis block. -/
theorem hz : (![0, 0] : Fin 2 → Nat) = fun _ => 0 := funext fun a => by fin_cases a <;> rfl

/-! ## Layer 2: what the tiled call leaves in its output array -/

theorem idx_facts2 : ∀ t : Fin cfg2.N,
      win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) ≤ 9 ∧ win2_9.index t (1 : Fin 2) = 0 :=
  (by decide +kernel : ∀ t : Fin grid2.N, _)

/-- Every one of the ten row blocks is some point's. -/
theorem idx_onto2 : ∀ q0 : Fin 10, ∃ t : Fin cfg2.N, win2_9.index t = ![q0.val, 0] :=
  (by decide +kernel : ∀ q0 : Fin 10, ∃ t : Fin grid2.N, win2_9.index t = ![q0.val, 0])

/-- The node whose row is row p of point t's block. -/
def rowOf2 (t : Fin cfg2.N) (p : Fin 5000) : Fin 50000 :=
  ⟨win2_9.index t (0 : Fin 2) * 5000 + p.val, by
    have h := (idx_facts2 t).2.2.2.2.2.2.2.2.2.2.2.2.2.2.2.2.2.2.1
    have := p.isLt
    omega⟩

/-- Block t of window 0 is rows t·5000 … t·5000+4999 of its array. -/
theorem blk2_0 (c : Dev nD) (t : Fin cfg2.N) (p : Fin 5000) (k : Fin 256) :
    iblk2 V c 0 t (ix2 p k) = V c main_v57 (ix2 (rowOf2 t p) k) := by
  have h : ((cfg2.win 0).blk t).view.emb (ix2 p k) = ix2 (rowOf2 t p) k := by
    obtain ⟨e00, e01, e10, e11, -⟩ := idx_facts2 t
    funext a; apply Fin.ext
    match a with
    | ⟨0, _⟩ => show win2_0.index t (0 : Fin 2) * 5000 + 1 * p.val = win2_9.index t (0 : Fin 2) * 5000 + p.val; omega
    | ⟨1, _⟩ => show win2_0.index t (1 : Fin 2) * 256 + 1 * k.val = k.val; omega
  show V c main_v57 (((cfg2.win 0).blk t).view.emb (ix2 p k)) = _
  rw [h]

/-- Block t of window 1 is rows t·5000 … t·5000+4999 of its array. -/
theorem blk2_1 (c : Dev nD) (t : Fin cfg2.N) (p : Fin 5000) (k : Fin 256) :
    iblk2 V c 1 t (ix2 p k) = V c main_v45 (ix2 (rowOf2 t p) k) := by
  have h : ((cfg2.win 1).blk t).view.emb (ix2 p k) = ix2 (rowOf2 t p) k := by
    obtain ⟨e00, e01, e10, e11, -⟩ := idx_facts2 t
    funext a; apply Fin.ext
    match a with
    | ⟨0, _⟩ => show win2_1.index t (0 : Fin 2) * 5000 + 1 * p.val = win2_9.index t (0 : Fin 2) * 5000 + p.val; omega
    | ⟨1, _⟩ => show win2_1.index t (1 : Fin 2) * 256 + 1 * k.val = k.val; omega
  show V c main_v45 (((cfg2.win 1).blk t).view.emb (ix2 p k)) = _
  rw [h]

/-- Window 2 is its whole array at every point. -/
theorem blk2_2 (c : Dev nD) (t : Fin cfg2.N) (j : Fin 256) (k : Fin 256) :
    iblk2 V c 2 t (ix2 j k) = V c main_arg16 (ix2 j k) := by
  have h : ((cfg2.win 2).blk t).view.emb (ix2 j k) = ix2 j k := by
    have e := idx_facts2 t
    funext a; apply Fin.ext
    match a with
    | ⟨0, _⟩ => show win2_2.index t (0 : Fin 2) * 256 + 1 * j.val = j.val; omega
    | ⟨1, _⟩ => show win2_2.index t (1 : Fin 2) * 256 + 1 * k.val = k.val; omega
  show V c main_arg16 (((cfg2.win 2).blk t).view.emb (ix2 j k)) = _
  rw [h]

/-- Window 3 is its whole row of 256 channel parameters at every point. -/
theorem blk2_3 (c : Dev nD) (t : Fin cfg2.N) (j : Fin 256) :
    iblk2 V c 3 t (ix2 0 j) = V c main_v58 (ix2 0 j) := by
  have h : ((cfg2.win 3).blk t).view.emb (ix2 (0 : Fin 1) j) = ix2 (0 : Fin 1) j := by
    have e := idx_facts2 t
    funext a; apply Fin.ext
    match a with
    | ⟨0, _⟩ => show win2_3.index t (0 : Fin 2) * 1 + 1 * 0 = 0; omega
    | ⟨1, _⟩ => show win2_3.index t (1 : Fin 2) * 256 + 1 * j.val = j.val; omega
  show V c main_v58 (((cfg2.win 3).blk t).view.emb (ix2 (0 : Fin 1) j)) = _
  rw [h]

/-- Window 4 is its whole array at every point. -/
theorem blk2_4 (c : Dev nD) (t : Fin cfg2.N) (j : Fin 256) (k : Fin 256) :
    iblk2 V c 4 t (ix2 j k) = V c main_arg18 (ix2 j k) := by
  have h : ((cfg2.win 4).blk t).view.emb (ix2 j k) = ix2 j k := by
    have e := idx_facts2 t
    funext a; apply Fin.ext
    match a with
    | ⟨0, _⟩ => show win2_4.index t (0 : Fin 2) * 256 + 1 * j.val = j.val; omega
    | ⟨1, _⟩ => show win2_4.index t (1 : Fin 2) * 256 + 1 * k.val = k.val; omega
  show V c main_arg18 (((cfg2.win 4).blk t).view.emb (ix2 j k)) = _
  rw [h]

/-- Window 5 is its whole row of 256 channel parameters at every point. -/
theorem blk2_5 (c : Dev nD) (t : Fin cfg2.N) (j : Fin 256) :
    iblk2 V c 5 t (ix2 0 j) = V c main_v59 (ix2 0 j) := by
  have h : ((cfg2.win 5).blk t).view.emb (ix2 (0 : Fin 1) j) = ix2 (0 : Fin 1) j := by
    have e := idx_facts2 t
    funext a; apply Fin.ext
    match a with
    | ⟨0, _⟩ => show win2_5.index t (0 : Fin 2) * 1 + 1 * 0 = 0; omega
    | ⟨1, _⟩ => show win2_5.index t (1 : Fin 2) * 256 + 1 * j.val = j.val; omega
  show V c main_v59 (((cfg2.win 5).blk t).view.emb (ix2 (0 : Fin 1) j)) = _
  rw [h]

/-- Window 6 is its whole row of 256 channel parameters at every point. -/
theorem blk2_6 (c : Dev nD) (t : Fin cfg2.N) (j : Fin 256) :
    iblk2 V c 6 t (ix2 0 j) = V c main_v60 (ix2 0 j) := by
  have h : ((cfg2.win 6).blk t).view.emb (ix2 (0 : Fin 1) j) = ix2 (0 : Fin 1) j := by
    have e := idx_facts2 t
    funext a; apply Fin.ext
    match a with
    | ⟨0, _⟩ => show win2_6.index t (0 : Fin 2) * 1 + 1 * 0 = 0; omega
    | ⟨1, _⟩ => show win2_6.index t (1 : Fin 2) * 256 + 1 * j.val = j.val; omega
  show V c main_v60 (((cfg2.win 6).blk t).view.emb (ix2 (0 : Fin 1) j)) = _
  rw [h]

/-- Window 7 is its whole row of 256 channel parameters at every point. -/
theorem blk2_7 (c : Dev nD) (t : Fin cfg2.N) (j : Fin 256) :
    iblk2 V c 7 t (ix2 0 j) = V c main_v61 (ix2 0 j) := by
  have h : ((cfg2.win 7).blk t).view.emb (ix2 (0 : Fin 1) j) = ix2 (0 : Fin 1) j := by
    have e := idx_facts2 t
    funext a; apply Fin.ext
    match a with
    | ⟨0, _⟩ => show win2_7.index t (0 : Fin 2) * 1 + 1 * 0 = 0; omega
    | ⟨1, _⟩ => show win2_7.index t (1 : Fin 2) * 256 + 1 * j.val = j.val; omega
  show V c main_v61 (((cfg2.win 7).blk t).view.emb (ix2 (0 : Fin 1) j)) = _
  rw [h]

/-- Window 8 is its whole row of 256 channel parameters at every point. -/
theorem blk2_8 (c : Dev nD) (t : Fin cfg2.N) (j : Fin 256) :
    iblk2 V c 8 t (ix2 0 j) = V c main_v62 (ix2 0 j) := by
  have h : ((cfg2.win 8).blk t).view.emb (ix2 (0 : Fin 1) j) = ix2 (0 : Fin 1) j := by
    have e := idx_facts2 t
    funext a; apply Fin.ext
    match a with
    | ⟨0, _⟩ => show win2_8.index t (0 : Fin 2) * 1 + 1 * 0 = 0; omega
    | ⟨1, _⟩ => show win2_8.index t (1 : Fin 2) * 256 + 1 * j.val = j.val; omega
  show V c main_v62 (((cfg2.win 8).blk t).view.emb (ix2 (0 : Fin 1) j)) = _
  rw [h]

/-- Point t's output block, entry by entry, is the layer's formula at the node the entry belongs to. -/
theorem point2 (c : Dev nD) (t : Fin cfg2.N) (y : S5000x256.Idx) :
    k2_pay1 (F := Ideal) (k2_pay2 (iblk2 V c 0 t) (iblk2 V c 1 t) (iblk2 V c 2 t) (iblk2 V c 4 t) (iblk2 V c 3 t) (iblk2 V c 8 t) (iblk2 V c 7 t) (iblk2 V c 5 t) (iblk2 V c 6 t)) k2_pay3 y
      = (Cert.Sage.layer 50000 256 256 (V c main_v57) (V c main_v45) (V c main_arg16) (V c main_arg18)
        (fun j => V c main_v58 (ix2 0 j)) (fun j => V c main_v59 (ix2 0 j)) (fun j => V c main_v60 (ix2 0 j))
        (fun j => V c main_v61 (ix2 0 j)) (fun j => V c main_v62 (ix2 0 j))) (((cfg2.win 9).blk t).view.emb y) := by
  obtain ⟨p, j, rfl⟩ : ∃ (p : Fin 5000) (j : Fin 256), y = ix2 p j := ⟨y 0, y 1, eq_ix2 y⟩
  have h : ((cfg2.win 9).blk t).view.emb (ix2 p j) = ix2 (rowOf2 t p) j := by
    have e := (idx_facts2 t).2.2.2.2.2.2.2.2.2.2.2.2.2.2.2.2.2.2.2
    funext a; apply Fin.ext
    match a with
    | ⟨0, _⟩ => show win2_9.index t (0 : Fin 2) * 5000 + 1 * p.val = win2_9.index t (0 : Fin 2) * 5000 + p.val; omega
    | ⟨1, _⟩ => show win2_9.index t (1 : Fin 2) * 256 + 1 * j.val = j.val; omega
  rw [h, Cert.Sage.layer_ix2]
  refine (sage2_apply _ _ _ _ _ _ _ _ _ p j).trans ?_
  simp only [blk2_0 V c t, blk2_1 V c t, blk2_2 V c t, blk2_3 V c t, blk2_4 V c t, blk2_5 V c t, blk2_6 V c t, blk2_7 V c t, blk2_8 V c t]
  rfl

/-- What point t writes back is block t of the layer's output array. -/
theorem flushed2 (c : Dev nD) (t : Fin cfg2.N) :
    (dat2 V c).flushed 9 t = ((cfg2.win 9).blk t).view.read (Elt Ideal)
      (Cert.Sage.layer 50000 256 256 (V c main_v57) (V c main_v45) (V c main_arg16) (V c main_arg18)
        (fun j => V c main_v58 (ix2 0 j)) (fun j => V c main_v59 (ix2 0 j)) (fun j => V c main_v60 (ix2 0 j))
        (fun j => V c main_v61 (ix2 0 j)) (fun j => V c main_v62 (ix2 0 j))) := by
  show (cfg2.win 9).cut (grid2.coords t) ((dat2 V c).after 9 t) = _
  rw [after2_9]
  unfold out2_9
  rw [View.canon_unit_zero hz]
  simp only [View.ld_unit_zero (S := S5000x256) hz, View.ld_unit_zero (S := S256x256) hz, View.ld_unit_zero (S := S1x256) hz]
  funext y
  exact point2 V c t y

/-- An index of the output array is in point t's block iff each coordinate is in the block's range on its axis. -/
theorem mem_blk2 (t : Fin cfg2.N) (i : S50000x256.Idx) :
    i ∈ ((cfg2.win 9).blk t).view.set ↔ ∀ a : Fin 2, win2_9.index t a * S5000x256.size a ≤ (i a).val ∧ (i a).val < win2_9.index t a * S5000x256.size a + S5000x256.size a := by
  show i ∈ ((View.whole main_v63).slice (win2_9.rect t)).set ↔ _
  rw [View.set_slice_whole, Rect.mem_set_unit]
  exact Iff.rfl

/-- The ten row blocks tile the array: row r lies in block r / 5000. -/
theorem cover2 (i : S50000x256.Idx) :
    ∃ t : Fin cfg2.N, (cfg2.win 9).flush t = true ∧ i ∈ ((cfg2.win 9).blk t).view.set := by
  have hi0 : (i 0).val < 50000 := (i 0).isLt
  have hi1 : (i 1).val < 256 := (i 1).isLt
  obtain ⟨t, ht⟩ := idx_onto2 ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_blk2]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 256 ≤ (i 1).val ∧ (i 1).val < win2_9.index t (1 : Fin 2) * 256 + 256; omega

/-- After the tiled call the output array is the layer's output, whatever the arrays it was entered with. -/
theorem arr2 (c : Dev nD) :
    (dat2 V c).arrAt 9 cfg2.N = (Cert.Sage.layer 50000 256 256 (V c main_v57) (V c main_v45) (V c main_arg16) (V c main_arg18)
        (fun j => V c main_v58 (ix2 0 j)) (fun j => V c main_v59 (ix2 0 j)) (fun j => V c main_v60 (ix2 0 j))
        (fun j => V c main_v61 (ix2 0 j)) (fun j => V c main_v62 (ix2 0 j))) :=
  (dat2 V c).arrAt_eq_of_cover 9 _ (fun t _ => flushed2 V c t) cover2

end Cert.KernelIdeal.Arr2

end
-- ==== Proof.Fold2.lean ====
/-
  The third layer, read off the fold.

  The stretch before the third tiled call computes the neighbourhood mean of the previous layer's output — with the
  edge columns and the incoming-edge counts computed before the first call — and recasts the layer's five
  channel-parameter vectors as rows; the call then leaves the layer's formula of those arrays in its output. The
  previous layer's output enters as an arbitrary array X: the statement is one layer deep.
-/
import proofs.«110900_j10282151707180_2_alg».proof.Proof.Gen.KernelIdeal.Frame
import proofs.«110900_j10282151707180_2_alg».proof.Proof.KernelAgg
import proofs.«110900_j10282151707180_2_alg».proof.Proof.FoldBase
import proofs.«110900_j10282151707180_2_alg».proof.Proof.SageSpec
import Idealize.ShloMosaic.Lib.StableHlo.Run
import Idealize.ShloMosaic.Lib.ValueLayout
import Idealize.ShloMosaic.Lib.ValueIdx
import proofs.«110900_j10282151707180_2_alg».proof.Proof.BlockArr2

set_option maxRecDepth 16384

noncomputable section

namespace Cert.KernelIdeal.Stage2

open Cert.KernelIdeal Cert.KernelIdeal.Gen Cert.KernelIdeal.Fold
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

variable (X : (⟨2, ![50000, 256]⟩ : Shape).Idx → EReal) (hX : W4 m ρ c (Proc.devRef .tc main_v45) = X)

set_option maxHeartbeats 4000000 in
include hX in
/-- The aggregated input of the call is the neighbourhood mean of the previous layer's output. -/
theorem mean : V5 m ρ c main_v57 = Agg.agg256 (Agg.src (m ((c : Thread nD τ).loc main_arg1))) (Agg.dst (m ((c : Thread nD τ).loc main_arg1))) (Agg.cnt (Agg.dst (m ((c : Thread nD τ).loc main_arg1)))) X := by
  have e : V5 m ρ c main_v57 = Agg.agg256 (W4 m ρ c (Proc.devRef .tc main_v1)) (W4 m ρ c (Proc.devRef .tc main_v3))
      (W4 m ρ c (Proc.devRef .tc main_v9)) (W4 m ρ c (Proc.devRef .tc main_v45)) := by
    dsimp only [V5, W5, hostOps2]; after_results_simp; rfl
  rw [e, src4 m ρ c, dst4 m ρ c, cnt4 m ρ c, hX]

set_option maxHeartbeats 4000000 in
include hX in
/-- The stretch leaves the previous layer's output alone. -/
theorem xin : V5 m ρ c main_v45 = X := by
  refine Eq.trans ?_ hX
  dsimp only [V5, W5, hostOps2]; after_results_simp

theorem wl : V5 m ρ c main_arg16 = m ((c : Thread nD τ).loc main_arg16) := keep5 m ρ c (b := main_arg16) (by decide)
theorem wr : V5 m ρ c main_arg18 = m ((c : Thread nD τ).loc main_arg18) := keep5 m ρ c (b := main_arg18) (by decide)

set_option maxHeartbeats 4000000 in
/-- The row the call is given is the parameter vector, recast with a leading unit axis. -/
theorem bl (j : Fin 256) : V5 m ρ c main_v58 (ix2 0 j) = m ((c : Thread nD τ).loc main_arg17) (ix1 j) := by
  have e : V5 m ρ c main_v58 = fun i => shapeCast S1x256 (W4 m ρ c (Proc.devRef .tc main_arg17)) shapeCasts_S256_S1x256 i := by
    dsimp only [V5, W5, hostOps2]; after_results_simp; rfl
  rw [e, keep4 m ρ c (b := main_arg17) (by decide)]
  exact shapeCast_a_1a_apply _ _ 0 j

set_option maxHeartbeats 4000000 in
/-- The row the call is given is the parameter vector, recast with a leading unit axis. -/
theorem g (j : Fin 256) : V5 m ρ c main_v59 (ix2 0 j) = m ((c : Thread nD τ).loc main_arg19) (ix1 j) := by
  have e : V5 m ρ c main_v59 = fun i => shapeCast S1x256 (W4 m ρ c (Proc.devRef .tc main_arg19)) shapeCasts_S256_S1x256 i := by
    dsimp only [V5, W5, hostOps2]; after_results_simp; rfl
  rw [e, keep4 m ρ c (b := main_arg19) (by decide)]
  exact shapeCast_a_1a_apply _ _ 0 j

set_option maxHeartbeats 4000000 in
/-- The row the call is given is the parameter vector, recast with a leading unit axis. -/
theorem be (j : Fin 256) : V5 m ρ c main_v60 (ix2 0 j) = m ((c : Thread nD τ).loc main_arg20) (ix1 j) := by
  have e : V5 m ρ c main_v60 = fun i => shapeCast S1x256 (W4 m ρ c (Proc.devRef .tc main_arg20)) shapeCasts_S256_S1x256 i := by
    dsimp only [V5, W5, hostOps2]; after_results_simp; rfl
  rw [e, keep4 m ρ c (b := main_arg20) (by decide)]
  exact shapeCast_a_1a_apply _ _ 0 j

set_option maxHeartbeats 4000000 in
/-- The row the call is given is the parameter vector, recast with a leading unit axis. -/
theorem rm (j : Fin 256) : V5 m ρ c main_v61 (ix2 0 j) = m ((c : Thread nD τ).loc main_arg21) (ix1 j) := by
  have e : V5 m ρ c main_v61 = fun i => shapeCast S1x256 (W4 m ρ c (Proc.devRef .tc main_arg21)) shapeCasts_S256_S1x256 i := by
    dsimp only [V5, W5, hostOps2]; after_results_simp; rfl
  rw [e, keep4 m ρ c (b := main_arg21) (by decide)]
  exact shapeCast_a_1a_apply _ _ 0 j

set_option maxHeartbeats 4000000 in
/-- The row the call is given is the parameter vector, recast with a leading unit axis. -/
theorem rv (j : Fin 256) : V5 m ρ c main_v62 (ix2 0 j) = m ((c : Thread nD τ).loc main_arg22) (ix1 j) := by
  have e : V5 m ρ c main_v62 = fun i => shapeCast S1x256 (W4 m ρ c (Proc.devRef .tc main_arg22)) shapeCasts_S256_S1x256 i := by
    dsimp only [V5, W5, hostOps2]; after_results_simp; rfl
  rw [e, keep4 m ρ c (b := main_arg22) (by decide)]
  exact shapeCast_a_1a_apply _ _ 0 j

include hX in
/-- After the call its output array is the layer of the previous layer's output and of the arguments. -/
theorem stage : W6 m ρ c (Proc.devRef .tc main_v63)
    = Cert.Sage.layer 50000 256 256 (Agg.agg256 (Agg.src (m ((c : Thread nD τ).loc main_arg1))) (Agg.dst (m ((c : Thread nD τ).loc main_arg1))) (Agg.cnt (Agg.dst (m ((c : Thread nD τ).loc main_arg1)))) X) X
        (m ((c : Thread nD τ).loc main_arg16)) (m ((c : Thread nD τ).loc main_arg18)) (fun j => m ((c : Thread nD τ).loc main_arg17) (ix1 j)) (fun j => m ((c : Thread nD τ).loc main_arg19) (ix1 j)) (fun j => m ((c : Thread nD τ).loc main_arg20) (ix1 j)) (fun j => m ((c : Thread nD τ).loc main_arg21) (ix1 j)) (fun j => m ((c : Thread nD τ).loc main_arg22) (ix1 j)) := by
  rw [show W6 m ρ c (Proc.devRef .tc main_v63) = (dat2 (V5 m ρ) c).arrAt 9 cfg2.N from W6_arr m ρ c 9, Arr2.arr2 (V5 m ρ) c]
  simp only [mean m ρ c X hX, xin m ρ c X hX, wl m ρ c, wr m ρ c, bl m ρ c, g m ρ c, be m ρ c, rm m ρ c, rv m ρ c]

end Cert.KernelIdeal.Stage2

end
-- ==== Proof.BlockArr3.lean ====
/-
  The head's tiled call: the column of scores.

  A tiled call cuts the node axis into ten blocks of 5000 consecutive rows; at point t it stages block t of each
  row-wise operand, the whole of every weight matrix and of every row of channel parameters, runs the body on the
  staged blocks and writes the body's result back as block t of the output. The body's result at one entry is the
  network's formula of the staged rows (the module of the bodies' arithmetic); a staged block's row p is the array's
  row t·5000 + p; the ten blocks tile the output array. So after the call the output array is the network's formula of
  the arrays the call was entered with — at every entry, whatever those arrays hold.
-/
import proofs.«110900_j10282151707180_2_alg».proof.Proof.Gen.KernelIdeal.Frame
import proofs.«110900_j10282151707180_2_alg».proof.Proof.SageSpec
import proofs.«110900_j10282151707180_2_alg».proof.Proof.BlockRows
import Idealize.ShloMosaic.Lib.Pipeline.Value
import Idealize.ShloMosaic.Lib.ValueIdx

set_option maxRecDepth 16384

noncomputable section

namespace Cert.KernelIdeal.Arr3

open Cert.KernelIdeal Cert.KernelIdeal.Gen Cert.BlockRows
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The origin of a two-axis block. -/
theorem hz : (![0, 0] : Fin 2 → Nat) = fun _ => 0 := funext fun a => by fin_cases a <;> rfl

/-! ## The head: what the tiled call leaves in the column of scores -/

theorem idx_facts3 : ∀ t : Fin cfg3.N,
      win3_0.index t (0 : Fin 2) = win3_7.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) ≤ 9 ∧ win3_7.index t (1 : Fin 2) = 0 :=
  (by decide +kernel : ∀ t : Fin grid3.N, _)

/-- Every one of the ten row blocks is some point's. -/
theorem idx_onto3 : ∀ q0 : Fin 10, ∃ t : Fin cfg3.N, win3_7.index t = ![q0.val, 0] :=
  (by decide +kernel : ∀ q0 : Fin 10, ∃ t : Fin grid3.N, win3_7.index t = ![q0.val, 0])

/-- The node whose row is row p of point t's block. -/
def rowOf3 (t : Fin cfg3.N) (p : Fin 5000) : Fin 50000 :=
  ⟨win3_7.index t (0 : Fin 2) * 5000 + p.val, by
    have h := (idx_facts3 t).2.2.2.2.2.2.2.2.2.2.2.2.2.2.1
    have := p.isLt
    omega⟩

/-- Block t of window 0 is rows t·5000 … t·5000+4999 of the feature array. -/
theorem blk3_0 (c : Dev nD) (t : Fin cfg3.N) (p : Fin 5000) (k : Fin 256) :
    iblk3 V c 0 t (ix2 p k) = V c main_v63 (ix2 (rowOf3 t p) k) := by
  have h : ((cfg3.win 0).blk t).view.emb (ix2 p k) = ix2 (rowOf3 t p) k := by
    obtain ⟨e00, e01, -⟩ := idx_facts3 t
    funext a; apply Fin.ext
    match a with
    | ⟨0, _⟩ => show win3_0.index t (0 : Fin 2) * 5000 + 1 * p.val = win3_7.index t (0 : Fin 2) * 5000 + p.val; omega
    | ⟨1, _⟩ => show win3_0.index t (1 : Fin 2) * 256 + 1 * k.val = k.val; omega
  show V c main_v63 (((cfg3.win 0).blk t).view.emb (ix2 p k)) = _
  rw [h]

/-- Window 1 is its whole array at every point. -/
theorem blk3_1 (c : Dev nD) (t : Fin cfg3.N) (a : Fin 256) (b : Fin 256) :
    iblk3 V c 1 t (ix2 a b) = V c main_arg23 (ix2 a b) := by
  have h : ((cfg3.win 1).blk t).view.emb (ix2 a b) = ix2 a b := by
    have e := idx_facts3 t
    funext d; apply Fin.ext
    match d with
    | ⟨0, _⟩ => show win3_1.index t (0 : Fin 2) * 256 + 1 * a.val = a.val; omega
    | ⟨1, _⟩ => show win3_1.index t (1 : Fin 2) * 256 + 1 * b.val = b.val; omega
  show V c main_arg23 (((cfg3.win 1).blk t).view.emb (ix2 a b)) = _
  rw [h]

/-- Window 2 is its whole array at every point. -/
theorem blk3_2 (c : Dev nD) (t : Fin cfg3.N) (a : Fin 1) (b : Fin 256) :
    iblk3 V c 2 t (ix2 a b) = V c main_v64 (ix2 a b) := by
  have h : ((cfg3.win 2).blk t).view.emb (ix2 a b) = ix2 a b := by
    have e := idx_facts3 t
    funext d; apply Fin.ext
    match d with
    | ⟨0, _⟩ => show win3_2.index t (0 : Fin 2) * 1 + 1 * a.val = a.val; omega
    | ⟨1, _⟩ => show win3_2.index t (1 : Fin 2) * 256 + 1 * b.val = b.val; omega
  show V c main_v64 (((cfg3.win 2).blk t).view.emb (ix2 a b)) = _
  rw [h]

/-- Window 3 is its whole array at every point. -/
theorem blk3_3 (c : Dev nD) (t : Fin cfg3.N) (a : Fin 128) (b : Fin 256) :
    iblk3 V c 3 t (ix2 a b) = V c main_arg25 (ix2 a b) := by
  have h : ((cfg3.win 3).blk t).view.emb (ix2 a b) = ix2 a b := by
    have e := idx_facts3 t
    funext d; apply Fin.ext
    match d with
    | ⟨0, _⟩ => show win3_3.index t (0 : Fin 2) * 128 + 1 * a.val = a.val; omega
    | ⟨1, _⟩ => show win3_3.index t (1 : Fin 2) * 256 + 1 * b.val = b.val; omega
  show V c main_arg25 (((cfg3.win 3).blk t).view.emb (ix2 a b)) = _
  rw [h]

/-- Window 4 is its whole array at every point. -/
theorem blk3_4 (c : Dev nD) (t : Fin cfg3.N) (a : Fin 1) (b : Fin 128) :
    iblk3 V c 4 t (ix2 a b) = V c main_v65 (ix2 a b) := by
  have h : ((cfg3.win 4).blk t).view.emb (ix2 a b) = ix2 a b := by
    have e := idx_facts3 t
    funext d; apply Fin.ext
    match d with
    | ⟨0, _⟩ => show win3_4.index t (0 : Fin 2) * 1 + 1 * a.val = a.val; omega
    | ⟨1, _⟩ => show win3_4.index t (1 : Fin 2) * 128 + 1 * b.val = b.val; omega
  show V c main_v65 (((cfg3.win 4).blk t).view.emb (ix2 a b)) = _
  rw [h]

/-- Window 5 is its whole array at every point. -/
theorem blk3_5 (c : Dev nD) (t : Fin cfg3.N) (a : Fin 1) (b : Fin 128) :
    iblk3 V c 5 t (ix2 a b) = V c main_arg27 (ix2 a b) := by
  have h : ((cfg3.win 5).blk t).view.emb (ix2 a b) = ix2 a b := by
    have e := idx_facts3 t
    funext d; apply Fin.ext
    match d with
    | ⟨0, _⟩ => show win3_5.index t (0 : Fin 2) * 1 + 1 * a.val = a.val; omega
    | ⟨1, _⟩ => show win3_5.index t (1 : Fin 2) * 128 + 1 * b.val = b.val; omega
  show V c main_arg27 (((cfg3.win 5).blk t).view.emb (ix2 a b)) = _
  rw [h]

/-- Window 6 is its whole array at every point. -/
theorem blk3_6 (c : Dev nD) (t : Fin cfg3.N) (a : Fin 1) (b : Fin 1) :
    iblk3 V c 6 t (ix2 a b) = V c main_v66 (ix2 a b) := by
  have h : ((cfg3.win 6).blk t).view.emb (ix2 a b) = ix2 a b := by
    have e := idx_facts3 t
    funext d; apply Fin.ext
    match d with
    | ⟨0, _⟩ => show win3_6.index t (0 : Fin 2) * 1 + 1 * a.val = a.val; omega
    | ⟨1, _⟩ => show win3_6.index t (1 : Fin 2) * 1 + 1 * b.val = b.val; omega
  show V c main_v66 (((cfg3.win 6).blk t).view.emb (ix2 a b)) = _
  rw [h]

/-- Point t's block of scores, entry by entry, is the head's formula at the node the entry belongs to. -/
theorem point3 (c : Dev nD) (t : Fin cfg3.N) (y : S5000x1.Idx) :
    k3_pay1 (F := Ideal) (iblk3 V c 0 t) (iblk3 V c 1 t) (iblk3 V c 2 t) (iblk3 V c 3 t) (iblk3 V c 4 t) (iblk3 V c 5 t) (iblk3 V c 6 t) y
      = (Cert.Sage.head 50000 (V c main_v63) (V c main_arg23) (fun b => V c main_v64 (ix2 0 b)) (V c main_arg25)
        (fun d => V c main_v65 (ix2 0 d)) (fun d => V c main_arg27 (ix2 0 d)) (V c main_v66 (ix2 0 0))) (((cfg3.win 7).blk t).view.emb y) := by
  obtain ⟨p, q, rfl⟩ : ∃ (p : Fin 5000) (q : Fin 1), y = ix2 p q := ⟨y 0, y 1, eq_ix2 y⟩
  have h : ((cfg3.win 7).blk t).view.emb (ix2 p q) = ix2 (rowOf3 t p) q := by
    have e := (idx_facts3 t).2.2.2.2.2.2.2.2.2.2.2.2.2.2.2
    funext a; apply Fin.ext
    match a with
    | ⟨0, _⟩ => show win3_7.index t (0 : Fin 2) * 5000 + 1 * p.val = win3_7.index t (0 : Fin 2) * 5000 + p.val; omega
    | ⟨1, _⟩ => show win3_7.index t (1 : Fin 2) * 1 + 1 * q.val = q.val; omega
  rw [h, Cert.Sage.head_ix2]
  refine (head3_apply _ _ _ _ _ _ _ p q).trans ?_
  unfold Cert.Sage.headAt Cert.Sage.dense
  simp only [blk3_0 V c t, blk3_1 V c t, blk3_2 V c t, blk3_3 V c t, blk3_4 V c t, blk3_5 V c t, blk3_6 V c t]

/-- What point t writes back is block t of the column of scores. -/
theorem flushed3 (c : Dev nD) (t : Fin cfg3.N) :
    (dat3 V c).flushed 7 t = ((cfg3.win 7).blk t).view.read (Elt Ideal)
      (Cert.Sage.head 50000 (V c main_v63) (V c main_arg23) (fun b => V c main_v64 (ix2 0 b)) (V c main_arg25)
        (fun d => V c main_v65 (ix2 0 d)) (fun d => V c main_arg27 (ix2 0 d)) (V c main_v66 (ix2 0 0))) := by
  show (cfg3.win 7).cut (grid3.coords t) ((dat3 V c).after 7 t) = _
  rw [after3_7]
  unfold out3_7
  rw [View.canon_unit_zero hz]
  simp only [View.ld_unit_zero (S := S5000x256) hz, View.ld_unit_zero (S := S256x256) hz, View.ld_unit_zero (S := S1x256) hz,
    View.ld_unit_zero (S := S128x256) hz, View.ld_unit_zero (S := S1x128) hz, View.ld_unit_zero (S := S1x1) hz]
  funext y
  exact point3 V c t y

/-- An index of the column is in point t's block iff each coordinate is in the block's range on its axis. -/
theorem mem_blk3 (t : Fin cfg3.N) (i : S50000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v67).slice (win3_7.rect t)).set ↔ _
  rw [View.set_slice_whole, Rect.mem_set_unit]
  exact Iff.rfl

/-- The ten row blocks tile the column: row r lies in block r / 5000. -/
theorem cover3 (i : S50000x1.Idx) :
    ∃ t : Fin cfg3.N, (cfg3.win 7).flush t = true ∧ i ∈ ((cfg3.win 7).blk t).view.set := by
  have hi0 : (i 0).val < 50000 := (i 0).isLt
  have hi1 : (i 1).val < 1 := (i 1).isLt
  obtain ⟨t, ht⟩ := idx_onto3 ⟨(i 0).val / 5000, by omega⟩
  have q0 : win3_7.index t (0 : Fin 2) = (i 0).val / 5000 := congrFun ht 0
  have q1 : win3_7.index t (1 : Fin 2) = 0 := congrFun ht 1
  refine ⟨t, flush3_7 t, ?_⟩
  rw [mem_blk3]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 1 ≤ (i 1).val ∧ (i 1).val < win3_7.index t (1 : Fin 2) * 1 + 1; omega

/-- After the tiled call the column of scores is the head of the feature array, whatever the arrays it was entered with. -/
theorem arr3 (c : Dev nD) :
    (dat3 V c).arrAt 7 cfg3.N = (Cert.Sage.head 50000 (V c main_v63) (V c main_arg23) (fun b => V c main_v64 (ix2 0 b)) (V c main_arg25)
        (fun d => V c main_v65 (ix2 0 d)) (fun d => V c main_arg27 (ix2 0 d)) (V c main_v66 (ix2 0 0))) :=
  (dat3 V c).arrAt_eq_of_cover 7 _ (fun t _ => flushed3 V c t) cover3

end Cert.KernelIdeal.Arr3

end
-- ==== Proof.Fold3.lean ====
/-
  The head, read off the fold.

  The last stretch only recasts the head's three bias vectors as rows; the last tiled call leaves the head's formula of
  the third layer's output and of the head's parameters in the column of scores, which is the program's result. The
  third layer's output enters as an arbitrary array X.
-/
import proofs.«110900_j10282151707180_2_alg».proof.Proof.Gen.KernelIdeal.Frame
import proofs.«110900_j10282151707180_2_alg».proof.Proof.KernelAgg
import proofs.«110900_j10282151707180_2_alg».proof.Proof.FoldBase
import proofs.«110900_j10282151707180_2_alg».proof.Proof.SageSpec
import Idealize.ShloMosaic.Lib.StableHlo.Run
import Idealize.ShloMosaic.Lib.ValueLayout
import Idealize.ShloMosaic.Lib.ValueIdx
import proofs.«110900_j10282151707180_2_alg».proof.Proof.BlockArr3

set_option maxRecDepth 16384

noncomputable section

namespace Cert.KernelIdeal.Stage3

open Cert.KernelIdeal Cert.KernelIdeal.Gen Cert.KernelIdeal.Fold
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

variable (X : (⟨2, ![50000, 256]⟩ : Shape).Idx → EReal) (hX : W6 m ρ c (Proc.devRef .tc main_v63) = X)

set_option maxHeartbeats 4000000 in
include hX in
/-- The stretch leaves the third layer's output alone. -/
theorem xin : V7 m ρ c main_v63 = X := by
  refine Eq.trans ?_ hX
  dsimp only [V7, W7, hostOps3]; after_results_simp

theorem pw1 : V7 m ρ c main_arg23 = m ((c : Thread nD τ).loc main_arg23) := keep7 m ρ c (b := main_arg23) (by decide)
theorem pw2 : V7 m ρ c main_arg25 = m ((c : Thread nD τ).loc main_arg25) := keep7 m ρ c (b := main_arg25) (by decide)
theorem pw3 : V7 m ρ c main_arg27 = m ((c : Thread nD τ).loc main_arg27) := keep7 m ρ c (b := main_arg27) (by decide)

set_option maxHeartbeats 4000000 in
/-- The row the call is given is the parameter vector, recast with a leading unit axis. -/
theorem pb1 (j : Fin 256) : V7 m ρ c main_v64 (ix2 0 j) = m ((c : Thread nD τ).loc main_arg24) (ix1 j) := by
  have e : V7 m ρ c main_v64 = fun i => shapeCast S1x256 (W6 m ρ c (Proc.devRef .tc main_arg24)) shapeCasts_S256_S1x256 i := by
    dsimp only [V7, W7, hostOps3]; after_results_simp; rfl
  rw [e, keep6 m ρ c (b := main_arg24) (by decide)]
  exact shapeCast_a_1a_apply _ _ 0 j

set_option maxHeartbeats 4000000 in
/-- The row the call is given is the parameter vector, recast with a leading unit axis. -/
theorem pb2 (j : Fin 128) : V7 m ρ c main_v65 (ix2 0 j) = m ((c : Thread nD τ).loc main_arg26) (ix1 j) := by
  have e : V7 m ρ c main_v65 = fun i => shapeCast S1x128 (W6 m ρ c (Proc.devRef .tc main_arg26)) shapeCasts_S128_S1x128 i := by
    dsimp only [V7, W7, hostOps3]; after_results_simp; rfl
  rw [e, keep6 m ρ c (b := main_arg26) (by decide)]
  exact shapeCast_a_1a_apply _ _ 0 j

set_option maxHeartbeats 4000000 in
/-- The row the call is given is the parameter vector, recast with a leading unit axis. -/
theorem pb3 (j : Fin 1) : V7 m ρ c main_v66 (ix2 0 j) = m ((c : Thread nD τ).loc main_arg28) (ix1 j) := by
  have e : V7 m ρ c main_v66 = fun i => shapeCast S1x1 (W6 m ρ c (Proc.devRef .tc main_arg28)) shapeCasts_S1_S1x1 i := by
    dsimp only [V7, W7, hostOps3]; after_results_simp; rfl
  rw [e, keep6 m ρ c (b := main_arg28) (by decide)]
  exact shapeCast_a_1a_apply _ _ 0 j

include hX in
/-- After the last call the program's result is the head of the third layer's output and of the arguments. -/
theorem stage : W8 m ρ c (Proc.devRef .tc main_v67)
    = Cert.Sage.head 50000 X (m ((c : Thread nD τ).loc main_arg23)) (fun b => m ((c : Thread nD τ).loc main_arg24) (ix1 b)) (m ((c : Thread nD τ).loc main_arg25))
        (fun d => m ((c : Thread nD τ).loc main_arg26) (ix1 d)) (fun d => m ((c : Thread nD τ).loc main_arg27) (ix2 0 d)) (m ((c : Thread nD τ).loc main_arg28) (ix1 0)) := by
  rw [show W8 m ρ c (Proc.devRef .tc main_v67) = (dat3 (V7 m ρ) c).arrAt 7 cfg3.N from W8_arr m ρ c 7, Arr3.arr3 (V7 m ρ) c]
  simp only [xin m ρ c X hX, pw1 m ρ c, pw2 m ρ c, pw3 m ρ c, pb1 m ρ c, pb2 m ρ c, pb3 m ρ c]

end Cert.KernelIdeal.Stage3

end
-- ==== Proof.KernelNet.lean ====
/-
  The idealized kernel computes the network.

  The four stages of the fold — three layers and the head, each stated with the previous layer's output as an
  arbitrary array — are chained: the program's result buffer ends holding the network of the arguments, with the
  neighbourhood mean spelt as the kernel's program spells it. The run is then re-posted with that value and the
  unchanged arguments.
-/
import proofs.«110900_j10282151707180_2_alg».proof.Proof.KernelHeld
import proofs.«110900_j10282151707180_2_alg».proof.Proof.Fold0
import proofs.«110900_j10282151707180_2_alg».proof.Proof.Fold1
import proofs.«110900_j10282151707180_2_alg».proof.Proof.Fold2
import proofs.«110900_j10282151707180_2_alg».proof.Proof.Fold3

set_option maxRecDepth 16384

noncomputable section

namespace Cert.KernelIdeal.Net

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The last stage of the fold at the result buffer: the network of the arguments. -/
theorem result_eq (c : Dev nD) : W8 m ρ c (Proc.devRef .tc main_v67)
    = Cert.Sage.net (Agg.agg128 (Agg.src (m ((c : Thread nD τ).loc main_arg1))) (Agg.dst (m ((c : Thread nD τ).loc main_arg1))) (Agg.cnt (Agg.dst (m ((c : Thread nD τ).loc main_arg1))))) (Agg.agg256 (Agg.src (m ((c : Thread nD τ).loc main_arg1))) (Agg.dst (m ((c : Thread nD τ).loc main_arg1))) (Agg.cnt (Agg.dst (m ((c : Thread nD τ).loc main_arg1))))) (m ((c : Thread nD τ).loc main_arg0))
      (m ((c : Thread nD τ).loc main_arg2)) (m ((c : Thread nD τ).loc main_arg4)) (fun j => m ((c : Thread nD τ).loc main_arg3) (ix1 j)) (fun j => m ((c : Thread nD τ).loc main_arg5) (ix1 j)) (fun j => m ((c : Thread nD τ).loc main_arg6) (ix1 j)) (fun j => m ((c : Thread nD τ).loc main_arg7) (ix1 j)) (fun j => m ((c : Thread nD τ).loc main_arg8) (ix1 j))
      (m ((c : Thread nD τ).loc main_arg9)) (m ((c : Thread nD τ).loc main_arg11)) (fun j => m ((c : Thread nD τ).loc main_arg10) (ix1 j)) (fun j => m ((c : Thread nD τ).loc main_arg12) (ix1 j)) (fun j => m ((c : Thread nD τ).loc main_arg13) (ix1 j)) (fun j => m ((c : Thread nD τ).loc main_arg14) (ix1 j)) (fun j => m ((c : Thread nD τ).loc main_arg15) (ix1 j))
      (m ((c : Thread nD τ).loc main_arg16)) (m ((c : Thread nD τ).loc main_arg18)) (fun j => m ((c : Thread nD τ).loc main_arg17) (ix1 j)) (fun j => m ((c : Thread nD τ).loc main_arg19) (ix1 j)) (fun j => m ((c : Thread nD τ).loc main_arg20) (ix1 j)) (fun j => m ((c : Thread nD τ).loc main_arg21) (ix1 j)) (fun j => m ((c : Thread nD τ).loc main_arg22) (ix1 j))
      (m ((c : Thread nD τ).loc main_arg23)) (fun j => m ((c : Thread nD τ).loc main_arg24) (ix1 j)) (m ((c : Thread nD τ).loc main_arg25)) (fun j => m ((c : Thread nD τ).loc main_arg26) (ix1 j)) (fun d => m ((c : Thread nD τ).loc main_arg27) (ix2 0 d)) (m ((c : Thread nD τ).loc main_arg28) (ix1 0)) :=
  Stage3.stage m ρ c _ (Stage2.stage m ρ c _ (Stage1.stage m ρ c _ (Stage0.stage0 m ρ c)))

/-- Every weakly fair execution of the idealized kernel terminates without a fault, with the result buffer at the
    network of the arguments and the arguments unchanged. -/
theorem run : θ_run defs (onTc (τ := τ) (main (F := Ideal))) ⟨m, fun _ => 0, ρ⟩ (fun r => ∀ c : Dev nD,
      r.2.mem ((c : Thread nD τ).loc main_v67) = Cert.Sage.net (Agg.agg128 (Agg.src (m ((c : Thread nD τ).loc main_arg1))) (Agg.dst (m ((c : Thread nD τ).loc main_arg1))) (Agg.cnt (Agg.dst (m ((c : Thread nD τ).loc main_arg1))))) (Agg.agg256 (Agg.src (m ((c : Thread nD τ).loc main_arg1))) (Agg.dst (m ((c : Thread nD τ).loc main_arg1))) (Agg.cnt (Agg.dst (m ((c : Thread nD τ).loc main_arg1))))) (m ((c : Thread nD τ).loc main_arg0))
      (m ((c : Thread nD τ).loc main_arg2)) (m ((c : Thread nD τ).loc main_arg4)) (fun j => m ((c : Thread nD τ).loc main_arg3) (ix1 j)) (fun j => m ((c : Thread nD τ).loc main_arg5) (ix1 j)) (fun j => m ((c : Thread nD τ).loc main_arg6) (ix1 j)) (fun j => m ((c : Thread nD τ).loc main_arg7) (ix1 j)) (fun j => m ((c : Thread nD τ).loc main_arg8) (ix1 j))
      (m ((c : Thread nD τ).loc main_arg9)) (m ((c : Thread nD τ).loc main_arg11)) (fun j => m ((c : Thread nD τ).loc main_arg10) (ix1 j)) (fun j => m ((c : Thread nD τ).loc main_arg12) (ix1 j)) (fun j => m ((c : Thread nD τ).loc main_arg13) (ix1 j)) (fun j => m ((c : Thread nD τ).loc main_arg14) (ix1 j)) (fun j => m ((c : Thread nD τ).loc main_arg15) (ix1 j))
      (m ((c : Thread nD τ).loc main_arg16)) (m ((c : Thread nD τ).loc main_arg18)) (fun j => m ((c : Thread nD τ).loc main_arg17) (ix1 j)) (fun j => m ((c : Thread nD τ).loc main_arg19) (ix1 j)) (fun j => m ((c : Thread nD τ).loc main_arg20) (ix1 j)) (fun j => m ((c : Thread nD τ).loc main_arg21) (ix1 j)) (fun j => m ((c : Thread nD τ).loc main_arg22) (ix1 j))
      (m ((c : Thread nD τ).loc main_arg23)) (fun j => m ((c : Thread nD τ).loc main_arg24) (ix1 j)) (m ((c : Thread nD τ).loc main_arg25)) (fun j => m ((c : Thread nD τ).loc main_arg26) (ix1 j)) (fun d => m ((c : Thread nD τ).loc main_arg27) (ix2 0 d)) (m ((c : Thread nD τ).loc main_arg28) (ix1 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)) :=
  (θ_run defs _ _).mono (fun r h c => ⟨(h c _ (mem_uc main_v67 (by decide))).trans (result_eq m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c),
      (h c _ (mem_uc main_arg24 (by decide))).trans (W8_main_arg24 m ρ c),
      (h c _ (mem_uc main_arg25 (by decide))).trans (W8_main_arg25 m ρ c),
      (h c _ (mem_uc main_arg26 (by decide))).trans (W8_main_arg26 m ρ c),
      (h c _ (mem_uc main_arg27 (by decide))).trans (W8_main_arg27 m ρ c),
      (h c _ (mem_uc main_arg28 (by decide))).trans (W8_main_arg28 m ρ c)⟩)
    (Held.run m ρ)

end Cert.KernelIdeal.Net

end
-- ==== Proof.RefNet.lean ====
/-
  The reference program is the network.

  The reference computes, from the node features, the edge list and the parameters, three mean-aggregation layers with
  batch normalisation and a perceptron head, one array operation at a time. This file reads that chain of operations at
  one entry (through the generated module's reading of each operation at an index) and recognises the specification's
  formulas.

  * The neighbourhood mean — gather the features along the edges, add them up at the receiving node, divide by the
    number of incoming edges cut off below at one — is kept as ONE function of the feature array: agg128 on 128
    features, agg256 on 256. The three layers' aggregated inputs are these functions by unfolding names (the third
    layer repeats the second layer's index stages under new names), and nothing below looks inside them.
  * Entry (p, j) of a layer is
        max( ((((Σₖ mean(p,k)·Wl(j,k) + bl(j)) + Σₖ x(p,k)·Wr(j,k)) − rm(j)) · rsqrt(rv(j) + ε)) · g(j) + be(j) , 0 ).
    The reference transposes each weight matrix before the product, so both sums run over the second axis of the
    matrices as they are stored; it adds the bias between the two products, where the specification adds it after
    both. That is the one law of arithmetic used: addition on the extended reals is commutative and associative
    with no side condition, so nothing here needs finiteness.
  * Entry p of the head is the logistic function of the last dot product plus its bias: the reference writes
    1 / (1 + exp(−z)) with the single-precision word of one, and that word is 1.

  Each layer is stated with the previous layer's output as an opaque array, so no statement unfolds more than one layer;
  the network is then the three layer equations and the head equation rewritten into one another.
-/
import proofs.«110900_j10282151707180_2_alg».proof.Proof.Gen.ReferenceIdeal.Read
import proofs.«110900_j10282151707180_2_alg».proof.Proof.SageSpec
import Idealize.ShloMosaic.Lib.IdealHost

noncomputable section

open scoped BigOperators

namespace Cert.RefNet

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The neighbourhood mean of a 128-feature array along the edge list: the features of each edge's first endpoint are
    gathered, added up at the edge's second endpoint, and each node's total is divided by its number of incoming edges
    (at least one). It is carried as one function of the array and is never opened. -/
def agg128 (ei : (⟨S2x800000, .i32⟩ : BufTy).Contents (Elt Ideal)) (x : (⟨S50000x128, .f32⟩ : BufTy).Contents (Elt Ideal)) : (⟨S50000x128, .f32⟩ : BufTy).Contents (Elt Ideal) :=
  Host.divf (F := Ideal) (φ := .f32) (Host.scatterAdd (F := Ideal) (φ := .f32) scatter_S50000x128_S800000x1_S800000x128_1_0_0_1 (Read.val_main_v11 (F := Ideal)) (Read.val_main_v12 (F := Ideal) ei)
    (Host.gather (α := Ideal .f32) gather_S50000x128_S800000x1_S800000x128_1_0_n_n_0_1_1128 x (Read.val_main_v9 (F := Ideal) ei))) (Read.val_main_v20 (F := Ideal) ei)

/-- The same mean on a 256-feature array. -/
def agg256 (ei : (⟨S2x800000, .i32⟩ : BufTy).Contents (Elt Ideal)) (x : (⟨S50000x256, .f32⟩ : BufTy).Contents (Elt Ideal)) : (⟨S50000x256, .f32⟩ : BufTy).Contents (Elt Ideal) :=
  Host.divf (F := Ideal) (φ := .f32) (Host.scatterAdd (F := Ideal) (φ := .f32) scatter_S50000x256_S800000x1_S800000x256_1_0_0_1 (Read.val_main_v53 (F := Ideal)) (Read.val_main_v54 (F := Ideal) ei)
    (Host.gather (α := Ideal .f32) gather_S50000x256_S800000x1_S800000x256_1_0_n_n_0_1_1256 x (Read.val_main_v51 (F := Ideal) ei))) (Read.val_main_v62 (F := Ideal) ei)

/-- The first layer's aggregated input is the 128-feature mean of the features. -/
theorem v21_eq (x0 : (⟨S50000x128, .f32⟩ : BufTy).Contents (Elt Ideal)) (x1 : (⟨S2x800000, .i32⟩ : BufTy).Contents (Elt Ideal)) : Read.val_main_v21 (F := Ideal) x0 x1 = agg128 x1 x0 := rfl

/-- The second layer's aggregated input is the 256-feature mean of the first layer's output. -/
theorem v63_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) : Read.val_main_v63 (F := Ideal) x0 x1 x2 x3 x4 x5 x6 x7 x8 = agg256 x1 (Read.val_main_v45 (F := Ideal) x0 x1 x2 x3 x4 x5 x6 x7 x8) := rfl

/-- The third layer's aggregated input is the same mean (its index stages are the second layer's under new names) of
    the second layer's output. -/
theorem v105_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) : Read.val_main_v105 (F := Ideal) x0 x1 x2 x3 x4 x5 x6 x7 x8 x9 x10 x11 x12 x13 x14 x15 = agg256 x1 (Read.val_main_v87 (F := Ideal) x0 x1 x2 x3 x4 x5 x6 x7 x8 x9 x10 x11 x12 x13 x14 x15) := rfl

/-- One channel of one node as the reference computes it: the bias is added between the two dot products, where the
    specification adds it after both. Addition on the extended reals is commutative and associative, with no side
    condition. -/
theorem sage_ref {K : Nat} (mean x wl wr : Fin K → EReal) (bl g be rm rv : EReal) :
    max (((((∑ k, mean k * wl k) + bl) + (∑ k, x k * wr k)) - rm) * Ideal.rsqrt (rv + Cert.Sage.eps) * g + be) Cert.Sage.zero
      = Cert.Sage.sage mean x wl wr bl g be rm rv := by
  unfold Cert.Sage.sage
  rw [add_right_comm]

/-! ## Layer 1

  Where the operations read their operands at entry (p, j): a product reads its left operand in row p at column k; the
  transposed weight matrix at (k, j) is the stored matrix at (j, k); a per-channel vector laid out as a row and repeated
  down the rows is read at channel j. -/
theorem lidx_v23 (p : Fin 50000) (j : Fin 256) (k : Fin 128) : lidx_main_v23 (ix2 p j) k = ix2 p k :=
  funext fun a => by match a with | ⟨0, _⟩ => rfl | ⟨1, _⟩ => rfl
theorem ridx_v23 (p : Fin 50000) (j : Fin 256) (k : Fin 128) : idx_main_v22 (ridx_main_v23 (ix2 p j) k) = ix2 j k :=
  funext fun a => by match a with | ⟨0, _⟩ => rfl | ⟨1, _⟩ => rfl
theorem lidx_v28 (p : Fin 50000) (j : Fin 256) (k : Fin 128) : lidx_main_v28 (ix2 p j) k = ix2 p k :=
  funext fun a => by match a with | ⟨0, _⟩ => rfl | ⟨1, _⟩ => rfl
theorem ridx_v28 (p : Fin 50000) (j : Fin 256) (k : Fin 128) : idx_main_v27 (ridx_main_v28 (ix2 p j) k) = ix2 j k :=
  funext fun a => by match a with | ⟨0, _⟩ => rfl | ⟨1, _⟩ => rfl
theorem idx_v25 (p : Fin 50000) (j : Fin 256) : idx_main_v24 (idx_main_v25 (ix2 p j)) = ix1 j :=
  funext fun a => by match a with | ⟨0, _⟩ => rfl
theorem idx_v31 (p : Fin 50000) (j : Fin 256) : idx_main_v30 (idx_main_v31 (ix2 p j)) = ix1 j :=
  funext fun a => by match a with | ⟨0, _⟩ => rfl
theorem idx_v37 (p : Fin 50000) (j : Fin 256) : idx_main_v36 (idx_main_v37 (ix2 p j)) = ix1 j :=
  funext fun a => by match a with | ⟨0, _⟩ => rfl
theorem idx_v40 (p : Fin 50000) (j : Fin 256) : idx_main_v39 (idx_main_v40 (ix2 p j)) = ix1 j :=
  funext fun a => by match a with | ⟨0, _⟩ => rfl
theorem idx_v43 (p : Fin 50000) (j : Fin 256) : idx_main_v42 (idx_main_v43 (ix2 p j)) = ix1 j :=
  funext fun a => by match a with | ⟨0, _⟩ => rfl

/-- One entry of layer 1's output in the reference is the specification's channel formula on that node's rows. -/
theorem layer0_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (p : Fin 50000) (j : Fin 256) :
    Read.val_main_v45 (F := Ideal) x0 x1 x2 x3 x4 x5 x6 x7 x8 (ix2 p j)
      = Cert.Sage.layerAt 50000 128 256 (Read.val_main_v21 (F := Ideal) x0 x1) x0 x2 x4 (fun c => x3 (ix1 c)) (fun c => x5 (ix1 c)) (fun c => x6 (ix1 c)) (fun c => x7 (ix1 c)) (fun c => x8 (ix1 c)) p j := by
  rw [val_main_v45_apply, val_main_v44_apply, val_main_v41_apply, val_main_v38_apply, val_main_v32_apply, val_main_v29_apply, val_main_v26_apply, val_main_v23_apply, val_main_v28_apply, val_main_v25_apply, val_main_v24_apply, val_main_v31_apply, val_main_v30_apply, val_main_v37_apply, val_main_v36_apply, val_main_v35_apply, val_main_v34_apply, val_main_v33_apply, val_main_cst_4_apply, val_main_v40_apply, val_main_v39_apply, val_main_v43_apply, val_main_v42_apply, val_main_call0_v0_apply, val_main_call0_cst_apply]
  generalize Read.val_main_v21 (F := Ideal) x0 x1 = y
  simp only [val_main_v22_apply, val_main_v27_apply, lidx_v23, ridx_v23, lidx_v28, ridx_v28, idx_v25, idx_v31, idx_v37, idx_v40, idx_v43, Ideal.addf_def, Ideal.subf_def, Ideal.mulf_def, Ideal.maximumf_def,
    Ideal.hostUnary_rsqrt_def, Ideal.ofBits_def]
  exact sage_ref (fun k => y (ix2 p k)) (fun k => x0 (ix2 p k)) (fun k => x2 (ix2 j k)) (fun k => x4 (ix2 j k)) (x3 (ix1 j)) (x5 (ix1 j)) (x6 (ix1 j)) (x7 (ix1 j)) (x8 (ix1 j))

/-- Layer 1 of the reference is the specification's layer, fed the mean of its input beside the input. -/
theorem layer0_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) :
    Read.val_main_v45 (F := Ideal) x0 x1 x2 x3 x4 x5 x6 x7 x8
      = Cert.Sage.layer 50000 128 256 (agg128 x1 x0) x0 x2 x4 (fun c => x3 (ix1 c)) (fun c => x5 (ix1 c)) (fun c => x6 (ix1 c)) (fun c => x7 (ix1 c)) (fun c => x8 (ix1 c)) := by
  funext i
  obtain ⟨p, j, rfl⟩ : ∃ (p : Fin 50000) (j : Fin 256), i = ix2 p j := ⟨i 0, i 1, eq_ix2 i⟩
  rw [Cert.Sage.layer_ix2, ← v21_eq]
  exact layer0_at x0 x1 x2 x3 x4 x5 x6 x7 x8 p j

/-! ## Layer 2

  Where the operations read their operands at entry (p, j): a product reads its left operand in row p at column k; the
  transposed weight matrix at (k, j) is the stored matrix at (j, k); a per-channel vector laid out as a row and repeated
  down the rows is read at channel j. -/
theorem lidx_v65 (p : Fin 50000) (j : Fin 256) (k : Fin 256) : lidx_main_v65 (ix2 p j) k = ix2 p k :=
  funext fun a => by match a with | ⟨0, _⟩ => rfl | ⟨1, _⟩ => rfl
theorem ridx_v65 (p : Fin 50000) (j : Fin 256) (k : Fin 256) : idx_main_v64 (ridx_main_v65 (ix2 p j) k) = ix2 j k :=
  funext fun a => by match a with | ⟨0, _⟩ => rfl | ⟨1, _⟩ => rfl
theorem lidx_v70 (p : Fin 50000) (j : Fin 256) (k : Fin 256) : lidx_main_v70 (ix2 p j) k = ix2 p k :=
  funext fun a => by match a with | ⟨0, _⟩ => rfl | ⟨1, _⟩ => rfl
theorem ridx_v70 (p : Fin 50000) (j : Fin 256) (k : Fin 256) : idx_main_v69 (ridx_main_v70 (ix2 p j) k) = ix2 j k :=
  funext fun a => by match a with | ⟨0, _⟩ => rfl | ⟨1, _⟩ => rfl
theorem idx_v67 (p : Fin 50000) (j : Fin 256) : idx_main_v66 (idx_main_v67 (ix2 p j)) = ix1 j :=
  funext fun a => by match a with | ⟨0, _⟩ => rfl
theorem idx_v73 (p : Fin 50000) (j : Fin 256) : idx_main_v72 (idx_main_v73 (ix2 p j)) = ix1 j :=
  funext fun a => by match a with | ⟨0, _⟩ => rfl
theorem idx_v79 (p : Fin 50000) (j : Fin 256) : idx_main_v78 (idx_main_v79 (ix2 p j)) = ix1 j :=
  funext fun a => by match a with | ⟨0, _⟩ => rfl
theorem idx_v82 (p : Fin 50000) (j : Fin 256) : idx_main_v81 (idx_main_v82 (ix2 p j)) = ix1 j :=
  funext fun a => by match a with | ⟨0, _⟩ => rfl
theorem idx_v85 (p : Fin 50000) (j : Fin 256) : idx_main_v84 (idx_main_v85 (ix2 p j)) = ix1 j :=
  funext fun a => by match a with | ⟨0, _⟩ => rfl

/-- One entry of layer 2's output in the reference is the specification's channel formula on that node's rows. -/
theorem layer1_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (p : Fin 50000) (j : Fin 256) :
    Read.val_main_v87 (F := Ideal) x0 x1 x2 x3 x4 x5 x6 x7 x8 x9 x10 x11 x12 x13 x14 x15 (ix2 p j)
      = Cert.Sage.layerAt 50000 256 256 (Read.val_main_v63 (F := Ideal) x0 x1 x2 x3 x4 x5 x6 x7 x8) (Read.val_main_v45 (F := Ideal) x0 x1 x2 x3 x4 x5 x6 x7 x8) x9 x11 (fun c => x10 (ix1 c)) (fun c => x12 (ix1 c)) (fun c => x13 (ix1 c)) (fun c => x14 (ix1 c)) (fun c => x15 (ix1 c)) p j := by
  rw [val_main_v87_apply, val_main_v86_apply, val_main_v83_apply, val_main_v80_apply, val_main_v74_apply, val_main_v71_apply, val_main_v68_apply, val_main_v65_apply, val_main_v70_apply, val_main_v67_apply, val_main_v66_apply, val_main_v73_apply, val_main_v72_apply, val_main_v79_apply, val_main_v78_apply, val_main_v77_apply, val_main_v76_apply, val_main_v75_apply, val_main_cst_11_apply, val_main_v82_apply, val_main_v81_apply, val_main_v85_apply, val_main_v84_apply, val_main_call1_v0_apply, val_main_call1_cst_apply]
  generalize Read.val_main_v63 (F := Ideal) x0 x1 x2 x3 x4 x5 x6 x7 x8 = y
  generalize Read.val_main_v45 (F := Ideal) x0 x1 x2 x3 x4 x5 x6 x7 x8 = z
  simp only [val_main_v64_apply, val_main_v69_apply, lidx_v65, ridx_v65, lidx_v70, ridx_v70, idx_v67, idx_v73, idx_v79, idx_v82, idx_v85, Ideal.addf_def, Ideal.subf_def, Ideal.mulf_def, Ideal.maximumf_def,
    Ideal.hostUnary_rsqrt_def, Ideal.ofBits_def]
  exact sage_ref (fun k => y (ix2 p k)) (fun k => z (ix2 p k)) (fun k => x9 (ix2 j k)) (fun k => x11 (ix2 j k)) (x10 (ix1 j)) (x12 (ix1 j)) (x13 (ix1 j)) (x14 (ix1 j)) (x15 (ix1 j))

/-- Layer 2 of the reference is the specification's layer, fed the mean of its input beside the input. -/
theorem layer1_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) :
    Read.val_main_v87 (F := Ideal) x0 x1 x2 x3 x4 x5 x6 x7 x8 x9 x10 x11 x12 x13 x14 x15
      = Cert.Sage.layer 50000 256 256 (agg256 x1 (Read.val_main_v45 (F := Ideal) x0 x1 x2 x3 x4 x5 x6 x7 x8)) (Read.val_main_v45 (F := Ideal) x0 x1 x2 x3 x4 x5 x6 x7 x8) x9 x11 (fun c => x10 (ix1 c)) (fun c => x12 (ix1 c)) (fun c => x13 (ix1 c)) (fun c => x14 (ix1 c)) (fun c => x15 (ix1 c)) := by
  funext i
  obtain ⟨p, j, rfl⟩ : ∃ (p : Fin 50000) (j : Fin 256), i = ix2 p j := ⟨i 0, i 1, eq_ix2 i⟩
  rw [Cert.Sage.layer_ix2, ← v63_eq]
  exact layer1_at x0 x1 x2 x3 x4 x5 x6 x7 x8 x9 x10 x11 x12 x13 x14 x15 p j

/-! ## Layer 3

  Where the operations read their operands at entry (p, j): a product reads its left operand in row p at column k; the
  transposed weight matrix at (k, j) is the stored matrix at (j, k); a per-channel vector laid out as a row and repeated
  down the rows is read at channel j. -/
theorem lidx_v107 (p : Fin 50000) (j : Fin 256) (k : Fin 256) : lidx_main_v107 (ix2 p j) k = ix2 p k :=
  funext fun a => by match a with | ⟨0, _⟩ => rfl | ⟨1, _⟩ => rfl
theorem ridx_v107 (p : Fin 50000) (j : Fin 256) (k : Fin 256) : idx_main_v106 (ridx_main_v107 (ix2 p j) k) = ix2 j k :=
  funext fun a => by match a with | ⟨0, _⟩ => rfl | ⟨1, _⟩ => rfl
theorem lidx_v112 (p : Fin 50000) (j : Fin 256) (k : Fin 256) : lidx_main_v112 (ix2 p j) k = ix2 p k :=
  funext fun a => by match a with | ⟨0, _⟩ => rfl | ⟨1, _⟩ => rfl
theorem ridx_v112 (p : Fin 50000) (j : Fin 256) (k : Fin 256) : idx_main_v111 (ridx_main_v112 (ix2 p j) k) = ix2 j k :=
  funext fun a => by match a with | ⟨0, _⟩ => rfl | ⟨1, _⟩ => rfl
theorem idx_v109 (p : Fin 50000) (j : Fin 256) : idx_main_v108 (idx_main_v109 (ix2 p j)) = ix1 j :=
  funext fun a => by match a with | ⟨0, _⟩ => rfl
theorem idx_v115 (p : Fin 50000) (j : Fin 256) : idx_main_v114 (idx_main_v115 (ix2 p j)) = ix1 j :=
  funext fun a => by match a with | ⟨0, _⟩ => rfl
theorem idx_v121 (p : Fin 50000) (j : Fin 256) : idx_main_v120 (idx_main_v121 (ix2 p j)) = ix1 j :=
  funext fun a => by match a with | ⟨0, _⟩ => rfl
theorem idx_v124 (p : Fin 50000) (j : Fin 256) : idx_main_v123 (idx_main_v124 (ix2 p j)) = ix1 j :=
  funext fun a => by match a with | ⟨0, _⟩ => rfl
theorem idx_v127 (p : Fin 50000) (j : Fin 256) : idx_main_v126 (idx_main_v127 (ix2 p j)) = ix1 j :=
  funext fun a => by match a with | ⟨0, _⟩ => rfl

/-- One entry of layer 3's output in the reference is the specification's channel formula on that node's rows. -/
theorem layer2_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) (p : Fin 50000) (j : Fin 256) :
    Read.val_main_v129 (F := Ideal) x0 x1 x2 x3 x4 x5 x6 x7 x8 x9 x10 x11 x12 x13 x14 x15 x16 x17 x18 x19 x20 x21 x22 (ix2 p j)
      = Cert.Sage.layerAt 50000 256 256 (Read.val_main_v105 (F := Ideal) x0 x1 x2 x3 x4 x5 x6 x7 x8 x9 x10 x11 x12 x13 x14 x15) (Read.val_main_v87 (F := Ideal) x0 x1 x2 x3 x4 x5 x6 x7 x8 x9 x10 x11 x12 x13 x14 x15) x16 x18 (fun c => x17 (ix1 c)) (fun c => x19 (ix1 c)) (fun c => x20 (ix1 c)) (fun c => x21 (ix1 c)) (fun c => x22 (ix1 c)) p j := by
  rw [val_main_v129_apply, val_main_v128_apply, val_main_v125_apply, val_main_v122_apply, val_main_v116_apply, val_main_v113_apply, val_main_v110_apply, val_main_v107_apply, val_main_v112_apply, val_main_v109_apply, val_main_v108_apply, val_main_v115_apply, val_main_v114_apply, val_main_v121_apply, val_main_v120_apply, val_main_v119_apply, val_main_v118_apply, val_main_v117_apply, val_main_cst_18_apply, val_main_v124_apply, val_main_v123_apply, val_main_v127_apply, val_main_v126_apply, val_main_call2_v0_apply, val_main_call2_cst_apply]
  generalize Read.val_main_v105 (F := Ideal) x0 x1 x2 x3 x4 x5 x6 x7 x8 x9 x10 x11 x12 x13 x14 x15 = y
  generalize Read.val_main_v87 (F := Ideal) x0 x1 x2 x3 x4 x5 x6 x7 x8 x9 x10 x11 x12 x13 x14 x15 = z
  simp only [val_main_v106_apply, val_main_v111_apply, lidx_v107, ridx_v107, lidx_v112, ridx_v112, idx_v109, idx_v115, idx_v121, idx_v124, idx_v127, Ideal.addf_def, Ideal.subf_def, Ideal.mulf_def, Ideal.maximumf_def,
    Ideal.hostUnary_rsqrt_def, Ideal.ofBits_def]
  exact sage_ref (fun k => y (ix2 p k)) (fun k => z (ix2 p k)) (fun k => x16 (ix2 j k)) (fun k => x18 (ix2 j k)) (x17 (ix1 j)) (x19 (ix1 j)) (x20 (ix1 j)) (x21 (ix1 j)) (x22 (ix1 j))

/-- Layer 3 of the reference is the specification's layer, fed the mean of its input beside the input. -/
theorem layer2_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) :
    Read.val_main_v129 (F := Ideal) x0 x1 x2 x3 x4 x5 x6 x7 x8 x9 x10 x11 x12 x13 x14 x15 x16 x17 x18 x19 x20 x21 x22
      = Cert.Sage.layer 50000 256 256 (agg256 x1 (Read.val_main_v87 (F := Ideal) x0 x1 x2 x3 x4 x5 x6 x7 x8 x9 x10 x11 x12 x13 x14 x15)) (Read.val_main_v87 (F := Ideal) x0 x1 x2 x3 x4 x5 x6 x7 x8 x9 x10 x11 x12 x13 x14 x15) x16 x18 (fun c => x17 (ix1 c)) (fun c => x19 (ix1 c)) (fun c => x20 (ix1 c)) (fun c => x21 (ix1 c)) (fun c => x22 (ix1 c)) := by
  funext i
  obtain ⟨p, j, rfl⟩ : ∃ (p : Fin 50000) (j : Fin 256), i = ix2 p j := ⟨i 0, i 1, eq_ix2 i⟩
  rw [Cert.Sage.layer_ix2, ← v105_eq]
  exact layer2_at x0 x1 x2 x3 x4 x5 x6 x7 x8 x9 x10 x11 x12 x13 x14 x15 x16 x17 x18 x19 x20 x21 x22 p j

/-! ## The head

  The same readings for the head's three products and biases; the last product has a single output column, so its
  column coordinate is the only element of a one-point range. -/
theorem lidx_v131 (p : Fin 50000) (j : Fin 256) (k : Fin 256) : lidx_main_v131 (ix2 p j) k = ix2 p k :=
  funext fun a => by match a with | ⟨0, _⟩ => rfl | ⟨1, _⟩ => rfl
theorem ridx_v131 (p : Fin 50000) (j : Fin 256) (k : Fin 256) : idx_main_v130 (ridx_main_v131 (ix2 p j) k) = ix2 j k :=
  funext fun a => by match a with | ⟨0, _⟩ => rfl | ⟨1, _⟩ => rfl
theorem idx_v133 (p : Fin 50000) (j : Fin 256) : idx_main_v132 (idx_main_v133 (ix2 p j)) = ix1 j :=
  funext fun a => by match a with | ⟨0, _⟩ => rfl
theorem lidx_v137 (p : Fin 50000) (c : Fin 128) (k : Fin 256) : lidx_main_v137 (ix2 p c) k = ix2 p k :=
  funext fun a => by match a with | ⟨0, _⟩ => rfl | ⟨1, _⟩ => rfl
theorem ridx_v137 (p : Fin 50000) (c : Fin 128) (k : Fin 256) : idx_main_v136 (ridx_main_v137 (ix2 p c) k) = ix2 c k :=
  funext fun a => by match a with | ⟨0, _⟩ => rfl | ⟨1, _⟩ => rfl
theorem idx_v139 (p : Fin 50000) (c : Fin 128) : idx_main_v138 (idx_main_v139 (ix2 p c)) = ix1 c :=
  funext fun a => by match a with | ⟨0, _⟩ => rfl
theorem lidx_v143 (p : Fin 50000) (q : Fin 1) (k : Fin 128) : lidx_main_v143 (ix2 p q) k = ix2 p k :=
  funext fun a => by match a with | ⟨0, _⟩ => rfl | ⟨1, _⟩ => rfl
theorem ridx_v143 (p : Fin 50000) (q : Fin 1) (k : Fin 128) : idx_main_v142 (ridx_main_v143 (ix2 p q) k) = ix2 q k :=
  funext fun a => by match a with | ⟨0, _⟩ => rfl | ⟨1, _⟩ => rfl
theorem idx_v145 (p : Fin 50000) (q : Fin 1) : idx_main_v144 (idx_main_v145 (ix2 p q)) = ix1 0 :=
  funext fun a => by match a with | ⟨0, _⟩ => rfl

/-- The head's first dense layer on one node: unit b of 256, cut off at zero. -/
theorem dense1_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) (x23 : (⟨S256x256, .f32⟩ : BufTy).Contents (Elt Ideal)) (x24 : (⟨S256, .f32⟩ : BufTy).Contents (Elt Ideal)) (p : Fin 50000) (b : Fin 256) :
    Read.val_main_v135 (F := Ideal) x0 x1 x2 x3 x4 x5 x6 x7 x8 x9 x10 x11 x12 x13 x14 x15 x16 x17 x18 x19 x20 x21 x22 x23 x24 (ix2 p b)
      = Cert.Sage.dense (fun a => Read.val_main_v129 (F := Ideal) x0 x1 x2 x3 x4 x5 x6 x7 x8 x9 x10 x11 x12 x13 x14 x15 x16 x17 x18 x19 x20 x21 x22 (ix2 p a)) (fun a => x23 (ix2 b a)) (x24 (ix1 b)) := by
  rw [val_main_v135_apply, val_main_v134_apply, val_main_v131_apply, val_main_v133_apply, val_main_v132_apply, val_main_call3_v0_apply, val_main_call3_cst_apply]
  generalize Read.val_main_v129 (F := Ideal) x0 x1 x2 x3 x4 x5 x6 x7 x8 x9 x10 x11 x12 x13 x14 x15 x16 x17 x18 x19 x20 x21 x22 = z
  simp only [val_main_v130_apply, lidx_v131, ridx_v131, idx_v133, Ideal.addf_def, Ideal.maximumf_def, Ideal.ofBits_def]
  rfl

/-- The head's second dense layer on one node: unit c of 128, cut off at zero. -/
theorem dense2_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) (x23 : (⟨S256x256, .f32⟩ : BufTy).Contents (Elt Ideal)) (x24 : (⟨S256, .f32⟩ : BufTy).Contents (Elt Ideal)) (x25 : (⟨S128x256, .f32⟩ : BufTy).Contents (Elt Ideal)) (x26 : (⟨S128, .f32⟩ : BufTy).Contents (Elt Ideal)) (p : Fin 50000) (c : Fin 128) :
    Read.val_main_v141 (F := Ideal) x0 x1 x2 x3 x4 x5 x6 x7 x8 x9 x10 x11 x12 x13 x14 x15 x16 x17 x18 x19 x20 x21 x22 x23 x24 x25 x26 (ix2 p c)
      = Cert.Sage.dense (fun b => Read.val_main_v135 (F := Ideal) x0 x1 x2 x3 x4 x5 x6 x7 x8 x9 x10 x11 x12 x13 x14 x15 x16 x17 x18 x19 x20 x21 x22 x23 x24 (ix2 p b)) (fun b => x25 (ix2 c b)) (x26 (ix1 c)) := by
  rw [val_main_v141_apply, val_main_v140_apply, val_main_v137_apply, val_main_v139_apply, val_main_v138_apply, val_main_call4_v0_apply, val_main_call4_cst_apply]
  generalize Read.val_main_v135 (F := Ideal) x0 x1 x2 x3 x4 x5 x6 x7 x8 x9 x10 x11 x12 x13 x14 x15 x16 x17 x18 x19 x20 x21 x22 x23 x24 = z
  simp only [val_main_v136_apply, lidx_v137, ridx_v137, idx_v139, Ideal.addf_def, Ideal.maximumf_def, Ideal.ofBits_def]
  rfl

/-- The score of one node: the dot product with the last weight row, its bias, and 1 / (1 + e^{-z}) written out with
    the word of one, which is the logistic function. -/
theorem logit_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) (x23 : (⟨S256x256, .f32⟩ : BufTy).Contents (Elt Ideal)) (x24 : (⟨S256, .f32⟩ : BufTy).Contents (Elt Ideal)) (x25 : (⟨S128x256, .f32⟩ : BufTy).Contents (Elt Ideal)) (x26 : (⟨S128, .f32⟩ : BufTy).Contents (Elt Ideal)) (x27 : (⟨S1x128, .f32⟩ : BufTy).Contents (Elt Ideal)) (x28 : (⟨S1, .f32⟩ : BufTy).Contents (Elt Ideal)) (p : Fin 50000) (q : Fin 1) :
    Read.val_main_v152 (F := Ideal) x0 x1 x2 x3 x4 x5 x6 x7 x8 x9 x10 x11 x12 x13 x14 x15 x16 x17 x18 x19 x20 x21 x22 x23 x24 x25 x26 x27 x28 (ix2 p q)
      = Ideal.logistic ((∑ c : Fin 128, Read.val_main_v141 (F := Ideal) x0 x1 x2 x3 x4 x5 x6 x7 x8 x9 x10 x11 x12 x13 x14 x15 x16 x17 x18 x19 x20 x21 x22 x23 x24 x25 x26 (ix2 p c) * x27 (ix2 0 c)) + x28 (ix1 0)) := by
  obtain rfl : q = 0 := Subsingleton.elim q 0
  rw [val_main_v152_apply, val_main_v151_apply, val_main_cst_20_apply, val_main_v150_apply, val_main_v149_apply, val_main_cst_19_apply, val_main_v148_apply, val_main_v147_apply, val_main_v146_apply, val_main_v143_apply, val_main_v145_apply, val_main_v144_apply]
  generalize Read.val_main_v141 (F := Ideal) x0 x1 x2 x3 x4 x5 x6 x7 x8 x9 x10 x11 x12 x13 x14 x15 x16 x17 x18 x19 x20 x21 x22 x23 x24 x25 x26 = z
  simp only [val_main_v142_apply, lidx_v143, ridx_v143, idx_v145, Ideal.hostDivf_def, Ideal.addf_def, Ideal.hostUnary_exp_def, Ideal.hostNegf_def, Ideal.negf_def,
    Ideal.ofBits_def, Ideal.ofBits_one_f32]
  rfl

/-- The reference's head is the specification's head on the third layer's output. -/
theorem head_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) (x23 : (⟨S256x256, .f32⟩ : BufTy).Contents (Elt Ideal)) (x24 : (⟨S256, .f32⟩ : BufTy).Contents (Elt Ideal)) (x25 : (⟨S128x256, .f32⟩ : BufTy).Contents (Elt Ideal)) (x26 : (⟨S128, .f32⟩ : BufTy).Contents (Elt Ideal)) (x27 : (⟨S1x128, .f32⟩ : BufTy).Contents (Elt Ideal)) (x28 : (⟨S1, .f32⟩ : BufTy).Contents (Elt Ideal)) :
    Read.val_main_v152 (F := Ideal) x0 x1 x2 x3 x4 x5 x6 x7 x8 x9 x10 x11 x12 x13 x14 x15 x16 x17 x18 x19 x20 x21 x22 x23 x24 x25 x26 x27 x28
      = Cert.Sage.head 50000 (Read.val_main_v129 (F := Ideal) x0 x1 x2 x3 x4 x5 x6 x7 x8 x9 x10 x11 x12 x13 x14 x15 x16 x17 x18 x19 x20 x21 x22) x23 (fun c => x24 (ix1 c)) x25 (fun c => x26 (ix1 c)) (fun c => x27 (ix2 0 c)) (x28 (ix1 0)) := by
  funext i
  obtain ⟨p, q, rfl⟩ : ∃ (p : Fin 50000) (q : Fin 1), i = ix2 p q := ⟨i 0, i 1, eq_ix2 i⟩
  rw [Cert.Sage.head_ix2, logit_at]
  simp only [dense2_at, dense1_at]
  rfl

/-! ## The whole network -/

/-- The reference program's result is the network of the specification, with the two neighbourhood means as its
    aggregations. -/
theorem ref_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 x20 x21 x22 : (⟨S256, .f32⟩ : BufTy).Contents (Elt Ideal)) (x23 : (⟨S256x256, .f32⟩ : BufTy).Contents (Elt Ideal)) (x24 : (⟨S256, .f32⟩ : BufTy).Contents (Elt Ideal)) (x25 : (⟨S128x256, .f32⟩ : BufTy).Contents (Elt Ideal)) (x26 : (⟨S128, .f32⟩ : BufTy).Contents (Elt Ideal)) (x27 : (⟨S1x128, .f32⟩ : BufTy).Contents (Elt Ideal)) (x28 : (⟨S1, .f32⟩ : BufTy).Contents (Elt Ideal)) :
    Read.val_main_v152 (F := Ideal) x0 x1 x2 x3 x4 x5 x6 x7 x8 x9 x10 x11 x12 x13 x14 x15 x16 x17 x18 x19 x20 x21 x22 x23 x24 x25 x26 x27 x28
      = Cert.Sage.net (agg128 x1) (agg256 x1) x0 x2 x4 (fun c => x3 (ix1 c)) (fun c => x5 (ix1 c)) (fun c => x6 (ix1 c)) (fun c => x7 (ix1 c)) (fun c => x8 (ix1 c))
          x9 x11 (fun c => x10 (ix1 c)) (fun c => x12 (ix1 c)) (fun c => x13 (ix1 c)) (fun c => x14 (ix1 c)) (fun c => x15 (ix1 c))
          x16 x18 (fun c => x17 (ix1 c)) (fun c => x19 (ix1 c)) (fun c => x20 (ix1 c)) (fun c => x21 (ix1 c)) (fun c => x22 (ix1 c))
          x23 (fun c => x24 (ix1 c)) x25 (fun c => x26 (ix1 c)) (fun c => x27 (ix2 0 c)) (x28 (ix1 0)) := by
  rw [head_eq, layer2_eq, layer1_eq, layer0_eq]
  rfl

end Cert.RefNet

end
-- ==== Proof.lean ====
/-
  A three-layer mean-aggregation graph network with batch normalisation and a perceptron head: a tiled kernel against a
  plain array program.

  Both programs compute, for 50000 nodes and 800000 edges,

      x₁ = layer(mean(x₀), x₀),  x₂ = layer(mean(x₁), x₁),  x₃ = layer(mean(x₂), x₂),  y = head(x₃),

  where mean is the neighbourhood mean along the edge list, a layer's entry (p, j) is
  max(((Σₖ mean(p,k)·Wl(j,k) + Σₖ x(p,k)·Wr(j,k) + bl(j) − rm(j)) · rsqrt(rv(j) + ε)) · g(j) + be(j), 0), and the head is two
  dense layers cut off at zero, a dot product and the logistic function. On the extended reals, where a change of
  float format is the identity and every operation is exact, the two programs differ only in spelling:

  * the kernel cuts the node axis into ten blocks of rows and computes each layer and the head block by block, while the
    reference works on whole arrays — a node's output row depends on that node's rows alone;
  * the kernel multiplies by the stored weight matrices contracted on their second axis, the reference transposes them
    first — the same sum over k;
  * the kernel adds the bias after both products, the reference between them — addition on the extended reals is
    commutative and associative with no side condition, so the precondition is never opened;
  * the kernel's last projection is a product followed by a lane sum, the reference's a matrix product with a
    one-column matrix; the kernel applies the logistic function, the reference writes 1 / (1 + exp(−z)) — its
    definition;
  * the neighbourhood mean (gather along the edges, accumulate at the receiving node, divide by the incoming-edge
    count) is the SAME chain of whole-array operations in both programs and is never opened: it enters the network as
    a function parameter, and the two spellings are identified by unfolding names.

  The kernel's value is read off its run as a fold through its eight segments (four stretches of whole-array operations
  and four tiled calls); the reference's off its run one operation at a time. The one rewrite of the ideal pass, a
  narrowing to half precision followed by the widening back, is the identity at this instance.
-/
import proofs.«110900_j10282151707180_2_alg».proof.Defs
import proofs.«110900_j10282151707180_2_alg».proof.Proof.Gen.Kernel
import proofs.«110900_j10282151707180_2_alg».proof.Proof.Gen.Kernel.Frame
import proofs.«110900_j10282151707180_2_alg».proof.Proof.Gen.KernelIdeal
import proofs.«110900_j10282151707180_2_alg».proof.Proof.Gen.KernelIdeal.Frame
import proofs.«110900_j10282151707180_2_alg».proof.Proof.Gen.ReferenceIdeal
import proofs.«110900_j10282151707180_2_alg».proof.Proof.Gen.ReferenceIdeal.Run
import proofs.«110900_j10282151707180_2_alg».proof.Proof.Gen.ReferenceIdeal.Read
import proofs.«110900_j10282151707180_2_alg».proof.Proof.Gen.Pre_finite_inputs
import proofs.«110900_j10282151707180_2_alg».proof.Proof.KernelNet
import proofs.«110900_j10282151707180_2_alg».proof.Proof.RefNet
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The two programs' neighbourhood means are one function -/

/-- On 128 features: the kernel's program computes the edge columns and the counts first and the reference computes
    them beside the gather, but the composed whole-array function of the edge list and the features is the same. -/
theorem agg128_eq (ei : (⟨Cert.KernelIdeal.S2x800000, .i32⟩ : BufTy).Contents (Elt Ideal)) :
    Cert.KernelIdeal.Agg.agg128 (Cert.KernelIdeal.Agg.src ei) (Cert.KernelIdeal.Agg.dst ei)
        (Cert.KernelIdeal.Agg.cnt (Cert.KernelIdeal.Agg.dst ei))
      = Cert.RefNet.agg128 ei := by
  funext x
  rfl

/-- On 256 features. -/
theorem agg256_eq (ei : (⟨Cert.KernelIdeal.S2x800000, .i32⟩ : BufTy).Contents (Elt Ideal)) :
    Cert.KernelIdeal.Agg.agg256 (Cert.KernelIdeal.Agg.src ei) (Cert.KernelIdeal.Agg.dst ei)
        (Cert.KernelIdeal.Agg.cnt (Cert.KernelIdeal.Agg.dst ei))
      = Cert.RefNet.agg256 ei := by
  funext x
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: narrowing a single-precision block to half precision and widening it back is the
    identity on the extended reals, and at the word level it is the rounding through half precision. -/
theorem preserves : Cert.preserves_Kernel_KernelIdeal :=
  IdealRules.truncf_extf.statement Cert.KernelIdeal.S5000x128 .f32 .bf16

set_option maxHeartbeats 4000000 in
/-- Both idealized programs end with the network of their (agreeing) arguments in their result. -/
theorem algebraic : Cert.algebraic_KernelIdeal_ReferenceIdeal := by
  intro m ρ m' ρ' _ hagree
  refine ⟨fun c => Cert.Sage.net (Cert.RefNet.agg128 (m ((c.tc : Thread Cert.KernelIdeal.nD Cert.KernelIdeal.τ).loc Cert.KernelIdeal.main_arg1))) (Cert.RefNet.agg256 (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (fun j => m ((c.tc : Thread Cert.KernelIdeal.nD Cert.KernelIdeal.τ).loc Cert.KernelIdeal.main_arg3) (ix1 j)) (fun j => m ((c.tc : Thread Cert.KernelIdeal.nD Cert.KernelIdeal.τ).loc Cert.KernelIdeal.main_arg5) (ix1 j)) (fun j => m ((c.tc : Thread Cert.KernelIdeal.nD Cert.KernelIdeal.τ).loc Cert.KernelIdeal.main_arg6) (ix1 j)) (fun j => m ((c.tc : Thread Cert.KernelIdeal.nD Cert.KernelIdeal.τ).loc Cert.KernelIdeal.main_arg7) (ix1 j)) (fun j => m ((c.tc : Thread Cert.KernelIdeal.nD Cert.KernelIdeal.τ).loc Cert.KernelIdeal.main_arg8) (ix1 j))
      (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (fun j => m ((c.tc : Thread Cert.KernelIdeal.nD Cert.KernelIdeal.τ).loc Cert.KernelIdeal.main_arg10) (ix1 j)) (fun j => m ((c.tc : Thread Cert.KernelIdeal.nD Cert.KernelIdeal.τ).loc Cert.KernelIdeal.main_arg12) (ix1 j)) (fun j => m ((c.tc : Thread Cert.KernelIdeal.nD Cert.KernelIdeal.τ).loc Cert.KernelIdeal.main_arg13) (ix1 j)) (fun j => m ((c.tc : Thread Cert.KernelIdeal.nD Cert.KernelIdeal.τ).loc Cert.KernelIdeal.main_arg14) (ix1 j)) (fun j => m ((c.tc : Thread Cert.KernelIdeal.nD Cert.KernelIdeal.τ).loc Cert.KernelIdeal.main_arg15) (ix1 j))
      (m ((c.tc : Thread Cert.KernelIdeal.nD Cert.KernelIdeal.τ).loc Cert.KernelIdeal.main_arg16)) (m ((c.tc : Thread Cert.KernelIdeal.nD Cert.KernelIdeal.τ).loc Cert.KernelIdeal.main_arg18)) (fun j => m ((c.tc : Thread Cert.KernelIdeal.nD Cert.KernelIdeal.τ).loc Cert.KernelIdeal.main_arg17) (ix1 j)) (fun j => m ((c.tc : Thread Cert.KernelIdeal.nD Cert.KernelIdeal.τ).loc Cert.KernelIdeal.main_arg19) (ix1 j)) (fun j => m ((c.tc : Thread Cert.KernelIdeal.nD Cert.KernelIdeal.τ).loc Cert.KernelIdeal.main_arg20) (ix1 j)) (fun j => m ((c.tc : Thread Cert.KernelIdeal.nD Cert.KernelIdeal.τ).loc Cert.KernelIdeal.main_arg21) (ix1 j)) (fun j => m ((c.tc : Thread Cert.KernelIdeal.nD Cert.KernelIdeal.τ).loc Cert.KernelIdeal.main_arg22) (ix1 j))
      (m ((c.tc : Thread Cert.KernelIdeal.nD Cert.KernelIdeal.τ).loc Cert.KernelIdeal.main_arg23)) (fun j => m ((c.tc : Thread Cert.KernelIdeal.nD Cert.KernelIdeal.τ).loc Cert.KernelIdeal.main_arg24) (ix1 j)) (m ((c.tc : Thread Cert.KernelIdeal.nD Cert.KernelIdeal.τ).loc Cert.KernelIdeal.main_arg25)) (fun j => m ((c.tc : Thread Cert.KernelIdeal.nD Cert.KernelIdeal.τ).loc Cert.KernelIdeal.main_arg26) (ix1 j)) (fun d => m ((c.tc : Thread Cert.KernelIdeal.nD Cert.KernelIdeal.τ).loc Cert.KernelIdeal.main_arg27) (ix2 0 d)) (m ((c.tc : Thread Cert.KernelIdeal.nD Cert.KernelIdeal.τ).loc Cert.KernelIdeal.main_arg28) (ix1 0)), ?_, ?_⟩
  · refine (θ_run Cert.KernelIdeal.defs _ _).mono (fun r h c => ⟨(h c).1.trans ?_, (h c).2⟩) (Cert.KernelIdeal.Net.run m ρ)
    rw [agg128_eq, agg256_eq]
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28⟩ := hagree c
    rw [Cert.ReferenceIdeal.Read.val_main_v152_eq, Cert.RefNet.ref_eq, h0, h1, h2, h3, h4, h5, h6, h7, h8, h9, h10, h11, h12, h13, h14, h15, h16, h17, h18, h19, h20, h21, h22, h23, h24, h25, h26, h27, h28]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
